-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2x128 : Shape := ⟨3, ![8192, 2, 128]⟩
abbrev S8192x8192 : Shape := ⟨2, ![8192, 8192]⟩
abbrev S_ : Shape := ⟨0, ![]⟩

class Facts : Prop where
  bcast_S_S8192x2x128 : S_.BroadcastsInDim S8192x2x128 (![] : Fin 0 → Fin S8192x2x128.rank)
  reducesTo_S8192x2x128_S_d0_1_2 : S8192x2x128.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x2x128 .f32) (main_arg1 : FVec F S8192x8192 .f32) : IVec S_ 1 :=
  let main_v0 : FVec F S8192x2x128 .f32 := Host.absf main_arg0
  let main_cst : FVec F S_ .f32 := constant S_ .f32 0x7F800000#32
  let main_v1 : FVec F S8192x2x128 .f32 := broadcastInDim S8192x2x128 ![] bcast_S_S8192x2x128 main_cst
  let main_v2 : IVec S8192x2x128 1 := cmpf .olt main_v0 main_v1
  let main_c : IVec S_ 1 := constantI S_ 1 1#1
  let main_v3 : IVec S_ 1 := (fun x v => Host.reduce IntOp.andi x v reducesTo_S8192x2x128_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x2x128 : Shape := ⟨3, ![8192, 2, 128]⟩
abbrev S8192x8192 : Shape := ⟨2, ![8192, 8192]⟩
abbrev S2x8192x128 : Shape := ⟨3, ![2, 8192, 128]⟩
abbrev S_ : Shape := ⟨0, ![]⟩
abbrev S2x8192 : Shape := ⟨2, ![2, 8192]⟩
abbrev S2x8192x1 : Shape := ⟨3, ![2, 8192, 1]⟩
abbrev S1x8192x128 : Shape := ⟨3, ![1, 8192, 128]⟩
abbrev S8192x128 : Shape := ⟨2, ![8192, 128]⟩
abbrev S1x1 : Shape := ⟨2, ![1, 1]⟩
abbrev S1024x128 : Shape := ⟨2, ![1024, 128]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 22
  | .vmem => 12
  | .smem => 0
  | _ => 0

abbrev bufTy : (tb : Table) → Fin (tcTables nBuf tb) → BufTy
  | .hbm, ⟨0, _⟩ => ⟨S8192x2x128, .f32⟩
  | .hbm, ⟨1, _⟩ => ⟨S8192x8192, .f32⟩
  | .hbm, ⟨2, _⟩ => ⟨S2x8192x128, .f32⟩
  | .hbm, ⟨3, _⟩ => ⟨S2x8192x128, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S2x8192x128, .f32⟩
  | .hbm, ⟨12, _⟩ => ⟨S2x8192x128, .f32⟩
  | .hbm, ⟨13, _⟩ => ⟨S2x8192x128, .bf16⟩
  | .hbm, ⟨14, _⟩ => ⟨S1x8192x128, .bf16⟩
  | .hbm, ⟨15, _⟩ => ⟨S8192x128, .bf16⟩
  | .hbm, ⟨16, _⟩ => ⟨S1x8192x128, .bf16⟩
  | .hbm, ⟨17, _⟩ => ⟨S8192x128, .bf16⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x1024, .f32⟩
  | .local _ .vmem, ⟨9, _⟩ => ⟨S1024x1024, .f32⟩
  | .local _ .vmem, ⟨10, _⟩ => ⟨S1x1, .f32⟩
  | .local _ .vmem, ⟨11, _⟩ => ⟨S1x1, .f32⟩
  | _, _ => ⟨S8192x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v35 : BitVec 1 := Scalar.cmpi .eq arg0 c7_i32
  let arg1 : BitVec 32 := BitVec.ofNat 32 (i 1).val
  let c7_i32_18 : BitVec 32 := 7#32
  let v36 : BitVec 1 := Scalar.cmpi .eq arg1 c7_i32_18
  let v37 : BitVec 1 := Scalar.andi v35 v36
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  transposes_S8192x2x128_S2x8192x128_1_0_2 : S8192x2x128.Transposes [1, 0, 2] S2x8192x128
  reducesTo_S2x8192x128_S2x8192_d2 : S2x8192x128.ReducesTo [2] S2x8192
  h_S_ : 0 < S_.numel
  bcast_S2x8192_S2x8192x1_0_1 : S2x8192.BroadcastsInDim S2x8192x1 (![0, 1] : Fin 2 → Fin S2x8192x1.rank)
  bcast_S_S2x8192x1 : S_.BroadcastsInDim S2x8192x1 (![] : Fin 0 → Fin S2x8192x1.rank)
  bcast_S2x8192x1_S2x8192x128_0_1_2 : S2x8192x1.BroadcastsInDim S2x8192x128 (![0, 1, 2] : Fin 3 → Fin S2x8192x128.rank)
  bitsLt_bf16_f32 : FTy.bits .bf16 < FTy.bits .f32
  slices_S2x8192x128_S1x8192x128_0_0_0 : S2x8192x128.Slices ![0, 0, 0] S1x8192x128
  shapeCasts_S1x8192x128_S8192x128 : S1x8192x128.ShapeCasts S8192x128
  slices_S2x8192x128_S1x8192x128_1_0_0 : S2x8192x128.Slices ![1, 0, 0] S1x8192x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .bf16 = 32 ∨ (Rect.block (s := S8192x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v8) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x2x128 : Shape := ⟨3, ![8192, 2, 128]⟩
abbrev S8192x8192 : Shape := ⟨2, ![8192, 8192]⟩
abbrev S2x8192x128 : Shape := ⟨3, ![2, 8192, 128]⟩
abbrev S_ : Shape := ⟨0, ![]⟩
abbrev S2x8192 : Shape := ⟨2, ![2, 8192]⟩
abbrev S2x8192x1 : Shape := ⟨3, ![2, 8192, 1]⟩
abbrev S2x8192x8192 : Shape := ⟨3, ![2, 8192, 8192]⟩
abbrev S1x8192x8192 : Shape := ⟨3, ![1, 8192, 8192]⟩
abbrev S2 : Shape := ⟨1, ![2]⟩

abbrev nBuf : Space → Nat
  | .hbm => 25
  | .vmem => 0
  | .smem => 0
  | _ => 0

abbrev bufTy : (tb : Table) → Fin (tcTables nBuf tb) → BufTy
  | .hbm, ⟨0, _⟩ => ⟨S8192x2x128, .f32⟩
  | .hbm, ⟨1, _⟩ => ⟨S8192x8192, .f32⟩
  | .hbm, ⟨2, _⟩ => ⟨S2x8192x128, .f32⟩
  | .hbm, ⟨3, _⟩ => ⟨S2x8192x128, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S2x8192x128, .f32⟩
  | .hbm, ⟨12, _⟩ => ⟨S2x8192x128, .f32⟩
  | .hbm, ⟨13, _⟩ => ⟨S2x8192x8192, .f32⟩
  | .hbm, ⟨14, _⟩ => ⟨S1x8192x8192, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S_, .f32⟩
  | .hbm, ⟨19, _⟩ => ⟨S2, .f32⟩
  | .hbm, ⟨20, _⟩ => ⟨S_, .f32⟩
  | .hbm, ⟨21, _⟩ => ⟨S2, .f32⟩
  | .hbm, ⟨22, _⟩ => ⟨S2, .f32⟩
  | .hbm, ⟨23, _⟩ => ⟨S_, .f32⟩
  | .hbm, ⟨24, _⟩ => ⟨S_, .f32⟩
  | _, _ => ⟨S8192x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  transposes_S8192x2x128_S2x8192x128_1_0_2 : S8192x2x128.Transposes [1, 0, 2] S2x8192x128
  reducesTo_S2x8192x128_S2x8192_d2 : S2x8192x128.ReducesTo [2] S2x8192
  h_S_ : 0 < S_.numel
  bcast_S2x8192_S2x8192x1_0_1 : S2x8192.BroadcastsInDim S2x8192x1 (![0, 1] : Fin 2 → Fin S2x8192x1.rank)
  bcast_S_S2x8192x1 : S_.BroadcastsInDim S2x8192x1 (![] : Fin 0 → Fin S2x8192x1.rank)
  bcast_S2x8192x1_S2x8192x128_0_1_2 : S2x8192x1.BroadcastsInDim S2x8192x128 (![0, 1, 2] : Fin 3 → Fin S2x8192x128.rank)
  bcast_S8192x8192_S1x8192x8192_1_2 : S8192x8192.BroadcastsInDim S1x8192x8192 (![1, 2] : Fin 2 → Fin S1x8192x8192.rank)
  bcast_S1x8192x8192_S2x8192x8192_0_1_2 : S1x8192x8192.BroadcastsInDim S2x8192x8192 (![0, 1, 2] : Fin 3 → Fin S2x8192x8192.rank)
  reducesTo_S2x8192x8192_S2_d1_2 : S2x8192x8192.ReducesTo [1, 2] S2
  bcast_S_S2 : S_.BroadcastsInDim S2 (![] : Fin 0 → Fin S2.rank)
  reducesTo_S2_S_d0 : S2.ReducesTo [0] S_
  dot_S2x8192x128_S2x8192x128_S2x8192x8192_2_2_1_1_0_0_wf : DotDims.WF S2x8192x128 S2x8192x128 S2x8192x8192 [2] [2] [1] [1] [0] [0]

variable [Facts₀]

def dot_S2x8192x128_S2x8192x128_S2x8192x8192_2_2_1_1_0_0 : DotDims S2x8192x128 S2x8192x128 S2x8192x8192 where
  lhsContracting := [2]
  rhsContracting := [2]
  lhsNonContracting := [1]
  rhsNonContracting := [1]
  lhsBatch := [0]
  rhsBatch := [0]
  wf := dot_S2x8192x128_S2x8192x128_S2x8192x8192_2_2_1_1_0_0_wf

class Facts : Prop extends Facts₀ where

variable [Facts]
-- ==== Proof.Bits.Base.lean ====
/-
  The kernel's program, read at the word level, around its one region, and the bookkeeping every later module is stated over.

  @main is three stretches of host operations (the transpose; the norm's five operations; ten more ending in the two
  per-view slices), the region, and three host operations after it (reshape the 1×1 result, the constant 2^26, the
  quotient).  `V0` is the device's buffer contents when the region is entered: the three stretches folded over the
  launch memory.  The region walks an 8×8 grid, point `t` being tile (t / 8, t % 8).  Window `w`'s block at a point is
  `iblk w t`: windows 0 and 1 read row tile t / 8 of the two normalized views, windows 2 and 3 column tile t % 8 of
  the same two arrays (so windows 0, 2 share one array and 1, 3 another), window 4 reads tile (t / 8, t % 8) of the
  target matrix, and window 5 is the 1×1 result, stored only at the last point.  The body has two conditionals on
  the coordinates: the first holds exactly at point 0 (the accumulator is cleared), the second exactly at point 63
  (the accumulator is copied to the result).
-/
import proofs.«125349_j36593121362411_1_alg».proof.Proof.Gen.Kernel.Launch
import proofs.«125349_j36593121362411_1_alg».proof.Proof.Gen.Kernel.Skeleton
import proofs.«125349_j36593121362411_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The device's buffer contents when the region is entered: the host operations before it, folded over the launch memory. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the three operations after it, the unscoped buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a row tile is
    fetched once per eight points and found in place at the other seven): for any proof data whose array is the
    entry contents and whose body leaves the block where it was.  One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals, decided over the grid -/

/-- The first conditional: both coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second conditional: both coordinates are seven. -/
abbrev cond0_1 (i : grid0.Coords) : Prop := k0_cond2 i = 1#1
/-- It holds at the last point only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the second conditional fails the result window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it holds the window is live. -/
theorem liveAt0_5 : ∀ t : Fin cfg0.N, cond0_1 (grid0.coords t) → cfg0.idle 5 (grid0.coords t) = false := by decide +kernel

/-! ## The staging memrefs the body is called with -/

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
/-- The accumulator: a scoped buffer of the kernel's own, passed beside the windows. -/
abbrev scM : Memref sig .tc .vmem S1x1 .f32 := Memref.whole cc0_scratch0
/-- The views the accumulator's and the result buffer's contents are stated through. -/
abbrev VS : View sig .tc .vmem S1x1 .f32 := scM.view
abbrev VO : View sig .tc .vmem S1x1 .f32 := (Memref.whole cc0_stg5_0 : Memref sig .tc .vmem S1x1 .f32).view

/-- The invariant the launch hands the region: the accumulator at some contents and the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Fr

end
-- ==== Proof.Bits.RunFirst.lean ====
/-
  The body at the first grid point (both coordinates zero, so the first conditional is taken and the second is not):
  the accumulator, found at whatever it held, is overwritten with the zero splat, read back, and overwritten again
  with that value plus the tile's two sums of squared differences; the result window is not touched.  The run finds
  the list of stores the accumulator ends with.
-/
import proofs.«125349_j36593121362411_1_alg».proof.Proof.Bits.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the first point leaves in the accumulator (last first), with the proof that from the inputs' buffers
    at their contents, the result buffer at contents it hands back untouched and the accumulator at anything, the
    body runs to the continuation holding the inputs as they were and the accumulator with those stores written. -/
noncomputable def runFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1024x128 .bf16) (x4 : Vec F S1024x1024 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__sim_distill_kernel i arg2 harg2 arg3 harg3 arg4 harg4 arg5 harg5 arg6 harg6 arg7 harg7 arg8 harg8) K } := by
  refine ⟨?_, fun xo E K => ?run⟩
  case run =>
    simp only [cc0__sim_distill_kernel_eq_skeleton]; unfold cc0__sim_distill_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Fr

end
-- ==== Proof.Bits.RunMid.lean ====
/-
  The body at a grid point that is neither the first nor the last (neither conditional taken): the accumulator,
  found at what the point before left, is overwritten with that value plus the tile's two sums of squared
  differences; the result window is not touched.  The run finds the one store the accumulator ends with.
-/
import proofs.«125349_j36593121362411_1_alg».proof.Proof.Bits.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The store a middle point leaves in the accumulator, with the proof that from the inputs' buffers at their
    contents, the result buffer at contents it hands back untouched and the accumulator at the contents the point
    before left, the body runs to the continuation holding the inputs as they were and the accumulator with that
    store written. -/
noncomputable def runMid (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1024x128 .bf16) (x4 : Vec F S1024x1024 .f32) (xs : Vec F S1x1 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__sim_distill_kernel i arg2 harg2 arg3 harg3 arg4 harg4 arg5 harg5 arg6 harg6 arg7 harg7 arg8 harg8) K } := by
  refine ⟨?_, fun xo E K => ?run⟩
  case run =>
    simp only [cc0__sim_distill_kernel_eq_skeleton]; unfold cc0__sim_distill_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Fr

end
-- ==== Proof.Bits.RunLast.lean ====
/-
  The body at the last grid point (both coordinates seven: the first conditional is not taken, the second is): the
  accumulator, found at what the point before left, is overwritten with that value plus the tile's two sums of
  squared differences, read back, and stored into the result window's buffer.  The run finds the stores the result
  buffer and the accumulator end with.
-/
import proofs.«125349_j36593121362411_1_alg».proof.Proof.Bits.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the last point leaves in the result buffer and in the accumulator, with the proof that from the
    inputs' buffers at their contents, the result buffer at anything and the accumulator at the contents the point
    before left, the body runs to the continuation holding the inputs as they were and both buffers with their
    stores written. -/
noncomputable def runLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1024x128 .bf16) (x4 : Vec F S1024x1024 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__sim_distill_kernel i arg2 harg2 arg3 harg3 arg4 harg4 arg5 harg5 arg6 harg6 arg7 harg7 arg8 harg8) K } := by
  refine ⟨?_, ?_, fun E K => ?run⟩
  case run =>
    simp only [cc0__sim_distill_kernel_eq_skeleton]; unfold cc0__sim_distill_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Fr

end
-- ==== Proof.Bits.Data.lean ====
/-
  What the accumulator holds after each grid point, and the proof data of the region.

  After point 0 the accumulator holds what the first point's stores leave; after every later point what that
  point's store leaves, computed from the tile's blocks and from what the point before left (`accAt`, by recursion on
  the point).  The result window's buffer is stored only at the last point, with the accumulator's final value.
  Between points the invariant holds the accumulator at `accAt` of the point before.  The two normalized views are
  each read through two windows (a row tile and a column tile): each of those windows holds one half of its array.
  The body obligation is a case split on the point — first, last, or in between — each case closed by that case's run.
-/
import proofs.«125349_j36593121362411_1_alg».proof.Proof.Bits.RunFirst
import proofs.«125349_j36593121362411_1_alg».proof.Proof.Bits.RunMid
import proofs.«125349_j36593121362411_1_alg».proof.Proof.Bits.RunLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator and in the result buffer -/

theorem scoverFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1024x128 .bf16) (x4 : Vec F S1024x1024 .f32) (y : S1x1.Idx) :
    ∃ pc ∈ (runFirst c i arg2 harg2 arg3 harg3 arg4 harg4 arg5 harg5 arg6 harg6 arg7 harg7 arg8 harg8 hc0 hc1 x0 x1 x2 x3 x4).1, y ∈ pc.1.set :=
  View.cover_of_tiledL (runFirst c i arg2 harg2 arg3 harg3 arg4 harg4 arg5 harg5 arg6 harg6 arg7 harg7 arg8 harg8 hc0 hc1 x0 x1 x2 x3 x4).1 S1x1.size (by sl_kernel_rfl) y

/-- What the first point leaves in the accumulator: its stores read back. -/
def soutFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1024x128 .bf16) (x4 : Vec F S1024x1024 .f32) : Vec F S1x1 .f32 :=
  VS.read (Elt F) (VS.writes (Elt F) VS.junk (runFirst c i arg2 harg2 arg3 harg3 arg4 harg4 arg5 harg5 arg6 harg6 arg7 harg7 arg8 harg8 hc0 hc1 x0 x1 x2 x3 x4).1)

theorem scoverMid (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1024x128 .bf16) (x4 : Vec F S1024x1024 .f32) (xs : Vec F S1x1 .f32) (y : S1x1.Idx) :
    ∃ pc ∈ (runMid c i arg2 harg2 arg3 harg3 arg4 harg4 arg5 harg5 arg6 harg6 arg7 harg7 arg8 harg8 hc0 hc1 x0 x1 x2 x3 x4 xs).1, y ∈ pc.1.set :=
  View.cover_of_tiledL (runMid c i arg2 harg2 arg3 harg3 arg4 harg4 arg5 harg5 arg6 harg6 arg7 harg7 arg8 harg8 hc0 hc1 x0 x1 x2 x3 x4 xs).1 S1x1.size (by sl_kernel_rfl) y

/-- What a middle point leaves in the accumulator. -/
def soutMid (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1024x128 .bf16) (x4 : Vec F S1024x1024 .f32) (xs : Vec F S1x1 .f32) : Vec F S1x1 .f32 :=
  VS.read (Elt F) (VS.writes (Elt F) VS.junk (runMid c i arg2 harg2 arg3 harg3 arg4 harg4 arg5 harg5 arg6 harg6 arg7 harg7 arg8 harg8 hc0 hc1 x0 x1 x2 x3 x4 xs).1)

theorem scoverLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1024x128 .bf16) (x4 : Vec F S1024x1024 .f32) (xs : Vec F S1x1 .f32) (y : S1x1.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S1x1.size (by sl_kernel_rfl) y

/-- What the last point leaves in the accumulator. -/
def soutLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1024x128 .bf16) (x4 : Vec F S1024x1024 .f32) (xs : Vec F S1x1 .f32) : Vec F S1x1 .f32 :=
  VS.read (Elt F) (VS.writes (Elt F) VS.junk (runLast c i arg2 harg2 arg3 harg3 arg4 harg4 arg5 harg5 arg6 harg6 arg7 harg7 arg8 harg8 hc0 hc1 x0 x1 x2 x3 x4 xs).2.1)

theorem coverLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1024x128 .bf16) (x4 : Vec F S1024x1024 .f32) (xs : Vec F S1x1 .f32) (y : S1x1.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S1x1.size (by sl_kernel_rfl) y

/-- What the last point leaves in the result window's buffer. -/
def outLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1024x128 .bf16) (x4 : Vec F S1024x1024 .f32) (xs : Vec F S1x1 .f32) : Vec F S1x1 .f32 :=
  VO.read (Elt F) (VO.writes (Elt F) VO.junk (runLast c i arg2 harg2 arg3 harg3 arg4 harg4 arg5 harg5 arg6 harg6 arg7 harg7 arg8 harg8 hc0 hc1 x0 x1 x2 x3 x4 xs).1)

/-! ## The accumulation -/

theorem N64 : cfg0.N = 64 := N_0

/-- What the accumulator holds after the body at position `n`: the first point's stores at 0; afterwards the point's
    store over what the point before left. -/
def accAt (c : Dev nD) : (n : ℕ) → n < cfg0.N → Vec F S1x1 .f32
  | 0, hn => soutFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM (Memref.isWhole_whole _) ((hcond0_0 ⟨0, hn⟩).mpr (Nat.zero_mod _)) (fun h => (fun h' => by (try dsimp only at h'); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩)
  | n + 1, hn =>
    if h1 : (n + 1) % 64 = 63 then
      soutLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM (Memref.isWhole_whole _) (fun h => (fun h' => by have hN : n + 1 < 64 := lt_of_lt_of_eq hn N64; (try dsimp only at h'); omega) ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))
    else
      soutMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM (Memref.isWhole_whole _) (fun h => (fun h' => by have hN : n + 1 < 64 := lt_of_lt_of_eq hn N64; (try dsimp only at h'); omega) ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))

theorem accAt_first (c : Dev nD) (t : Fin cfg0.N) (h0 : t.val % 64 = 0) (h1 : ¬t.val % 64 = 63) :
    accAt m c t.val t.isLt = soutFirst c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) ((hcond0_0 t).mpr h0) (fun h => h1 ((hcond0_1 t).mp h)) (iblk m c 0 t) (iblk m c 1 t) (iblk m c 2 t) (iblk m c 3 t) (iblk m c 4 t) := by
  obtain ⟨n, hn⟩ := t
  cases n with
  | zero => exact rfl
  | succ n => exact (by exfalso; have hN : n + 1 < 64 := lt_of_lt_of_eq hn N64; (try dsimp only at h0); omega)

theorem accAt_mid (c : Dev nD) (t : Fin cfg0.N) (h0 : ¬t.val % 64 = 0) (h1 : ¬t.val % 64 = 63) :
    accAt m c t.val t.isLt = soutMid c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun h => h0 ((hcond0_0 t).mp h)) (fun h => h1 ((hcond0_1 t).mp h)) (iblk m c 0 t) (iblk m c 1 t) (iblk m c 2 t) (iblk m c 3 t) (iblk m c 4 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem accAt_last (c : Dev nD) (t : Fin cfg0.N) (h0 : ¬t.val % 64 = 0) (h1 : t.val % 64 = 63) :
    accAt m c t.val t.isLt = soutLast c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun h => h0 ((hcond0_0 t).mp h)) ((hcond0_1 t).mpr h1) (iblk m c 0 t) (iblk m c 1 t) (iblk m c 2 t) (iblk m c 3 t) (iblk m c 4 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-- What the result window's buffer holds after the body at point `t`: at the last point the accumulator's value
    stored there; elsewhere the window is idle and this is a placeholder nothing consults. -/
def outAt (c : Dev nD) (t : Fin cfg0.N) : Vec F S1x1 .f32 :=
  if h1 : t.val % 64 = 63 then
    outLast c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun h => (fun h' => by omega) ((hcond0_0 t).mp h)) ((hcond0_1 t).mpr h1) (iblk m c 0 t) (iblk m c 1 t) (iblk m c 2 t) (iblk m c 3 t) (iblk m c 4 t) (accAt m c (t.val - 1) (Nat.lt_of_le_of_lt (Nat.sub_le _ _) t.isLt))
  else VO.read (Elt F) VO.junk

theorem outAt_last (c : Dev nD) (t : Fin cfg0.N) (h0 : ¬t.val % 64 = 0) (h1 : t.val % 64 = 63) :
    outAt m c t = outLast c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun h => h0 ((hcond0_0 t).mp h)) ((hcond0_1 t).mpr h1) (iblk m c 0 t) (iblk m c 1 t) (iblk m c 2 t) (iblk m c 3 t) (iblk m c 4 t) (accAt m c (t.val - 1) (Nat.lt_of_le_of_lt (Nat.sub_le _ _) t.isLt)) := by
  unfold outAt; exact (dif_pos h1).trans rfl

/-! ## The invariant between points -/

/-- Before the first point the accumulator is at anything; before any later point it is at what the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The region's proof data on one device: the arrays as the region finds them; after the body each input's buffer
    still at its block and the result's at `outAt`; the invariant `PhiS`; nothing owed; each of the two normalized
    views held in halves by its row window and its column window, the target matrix at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]
theorem leaves_in4 (c : Dev nD) (t : Fin cfg0.N) : (dats m 0 c).leavesExact 4 t = owns (c : Thread nD τ) (ms0_4 t) fullShare (iblk m c 4 t) := by
  unfold Dat.leavesExact; rw [liveAt0_4 t, after0_4]

set_option maxHeartbeats 4800000 in
/-- The body at any point: the inputs' buffers hold their blocks; the closed forms say which case the point is in;
    that case's run applies; the invariant hands the accumulator over at what the point before left (at anything at
    the first point) and takes it back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4]
  have hN : t.val < 64 := lt_of_lt_of_eq t.isLt N64
  by_cases h0 : t.val % 64 = 0
  · have h1 : ¬t.val % 64 = 63 := by omega
    have hz : t.val = 0 := by omega
    rw [Dat.leavesExact_idle (dats m 0 c) 5 t (idleAt0_5 t (fun h => h1 ((hcond0_1 t).mp h))) (noFlush0_5 t (fun h => h1 ((hcond0_1 t).mp h)))]
    rw [accAt_first m c t h0 h1]
    unfold soutFirst; (try dsimp only)
    rw [PhiS_castSucc m c t, PhiS_zero m c _ _ hz, PhiA0_eq]
    iintro ⟨⟨HS, Hg⟩, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2 _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, ⟨%es, HS⟩⟩
    isplitl [HS Hg]
    · isplitl [HS]
      · unfold owns; iexists _; isplitr
        swap; · iexact HS
        ipureintro; exact View.read_writes_of_cover _ _ _ _ _ (scoverFirst c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h1 : t.val % 64 = 63
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [accAt_last m c t h0 h1, outAt_last m c t h0 h1]
      unfold soutLast outLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (scoverLast c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast c _ _ _ _ _ _ _ _ _ _ _ _ _ _ _ _ _ _ _ _ _ _ _)
    · rw [Dat.leavesExact_idle (dats m 0 c) 5 t (idleAt0_5 t (fun h => h1 ((hcond0_1 t).mp h))) (noFlush0_5 t (fun h => h1 ((hcond0_1 t).mp h)))]
      rw [accAt_mid m c t h0 h1]
      unfold soutMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (scoverMid c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the accumulator's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N64; omega), PhiA0_eq]
  iintro ⟨HS, Hg⟩
  isplitl [HS]
  · iexists _; iexact HS
  iexact Hg

end Cert.Kernel.Fr

end
-- ==== Proof.Bits.Exit.lean ====
/-
  How the region's arrays are held, and what the device's buffers hold when the region is left and when the program ends.

  Two of the region's arrays are each read through two windows.  The buffers behind the arrays, each whole at the
  full share, are dealt among the windows: each normalized view's full share is split into its two halves, one for
  its row window and one for its column window; the target matrix and the result go whole to their one window
  (`arrays_of_bufs`), and the halves join again (`bufs_of_arrays`).  When the region is left the result array holds
  what its one write-back left and every other buffer what the region found (`Wexit`); the three host operations
  that follow — reshape to a scalar, the constant 2^26, the quotient — give the final contents (`Wend`).
-/
import proofs.«125349_j36593121362411_1_alg».proof.Proof.Bits.Data
import Idealize.ShloMosaic.Lib.StableHlo.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrBufs arrRef unscopedRest)

variable (m : (ℓ : Loc nD τ sig) → Buf (Elt F) ℓ) (ρ : Dev nD → PrngReg)

/-! ## Dealing the arrays' buffers among the windows -/

/-- The distinct buffers behind the six windows' arrays. -/
theorem arrImage : Finset.univ.image (arrRef spec0) = [main_v8, main_v10, main_arg1, main_v11].toFinset := by decide

theorem share0 (c : Dev nD) : (dats m 0 c).share 0 = fullShare.left := rfl
theorem share1 (c : Dev nD) : (dats m 0 c).share 1 = fullShare.left := rfl
theorem share2 (c : Dev nD) : (dats m 0 c).share 2 = fullShare.right := rfl
theorem share3 (c : Dev nD) : (dats m 0 c).share 3 = fullShare.right := rfl
theorem share4 (c : Dev nD) : (dats m 0 c).share 4 = fullShare := rfl
theorem share5 (c : Dev nD) : (dats m 0 c).share 5 = fullShare := rfl

/-- The windows' arrays, window by window, each a whole buffer at its window's share. -/
theorem arrays_chain (c : Dev nD) (Fw : (w : Fin cfg0.W) → Buf (Elt F) ((cfg0.win w).arr.view.loc (c.tc : Thread nD τ))) :
    ((dats m 0 c).arrays Fw : sProp 𝕄)
      = iprop((((c.tc : Thread nD τ).loc main_v8) ↦{fullShare.left} Fw 0) ∗ (((c.tc : Thread nD τ).loc main_v10) ↦{fullShare.left} Fw 1)
          ∗ (((c.tc : Thread nD τ).loc main_v8) ↦{fullShare.right} Fw 2) ∗ (((c.tc : Thread nD τ).loc main_v10) ↦{fullShare.right} Fw 3)
          ∗ (((c.tc : Thread nD τ).loc main_arg1) ↦{fullShare} Fw 4) ∗ (((c.tc : Thread nD τ).loc main_v11) ↦{fullShare} Fw 5)) := by
  have h : ((dats m 0 c).arrays Fw : sProp 𝕄)
      = bigSep Finset.univ fun w => (((c.tc : Thread nD τ).loc (arrRef spec0 w)) ↦{(dats m 0 c).share w} Fw w : sProp 𝕄) := by
    unfold Dat.arrays
    exact bigSep_congr fun w _ => by rw [(arr_whole0 w).set_eq_univ]
  rw [h, bigSep_W0, share0, share1, share2, share3, share4, share5]

/-- The distinct buffers, each whole at the full share. -/
theorem arrBufs_chain (c : Dev nD) (W : (b : Ref sig .tc) → Buf (Elt F) ((c.tc : Thread nD τ).loc b)) :
    (arrBufs spec0 c W : sProp 𝕄)
      = iprop((((c.tc : Thread nD τ).loc main_v8) ↦{fullShare} W main_v8) ∗ (((c.tc : Thread nD τ).loc main_v10) ↦{fullShare} W main_v10)
          ∗ (((c.tc : Thread nD τ).loc main_arg1) ↦{fullShare} W main_arg1) ∗ (((c.tc : Thread nD τ).loc main_v11) ↦{fullShare} W main_v11)) := by
  unfold Pipeline.arrBufs
  rw [bigSep_eq_bigSepL_of_eq [main_v8, main_v10, main_arg1, main_v11] arrImage (by decide)]
  rfl

/-- From the buffers at contents `W` to the windows' arrays at the same contents: each shared buffer is split in halves. -/
theorem arrays_of_bufs (c : Dev nD) (W : (b : Ref sig .tc) → Buf (Elt F) ((c.tc : Thread nD τ).loc b))
    (Fw : (w : Fin cfg0.W) → Buf (Elt F) ((cfg0.win w).arr.view.loc (c.tc : Thread nD τ)))
    (h0 : Fw 0 = W main_v8) (h1 : Fw 1 = W main_v10) (h2 : Fw 2 = W main_v8) (h3 : Fw 3 = W main_v10) (h4 : Fw 4 = W main_arg1) (h5 : Fw 5 = W main_v11) :
    (arrBufs spec0 c W : sProp 𝕄) ⊢ (dats m 0 c).arrays Fw := by
  rw [arrays_chain, arrBufs_chain, h0, h1, h2, h3, h4, h5]
  iintro ⟨H8, H10, H1, H11⟩
  ihave H8 := (pointsTo_share (PosShare.mem_left_op_right fullShare)).1 $$ H8
  icases H8 with ⟨H8l, H8r⟩
  ihave H10 := (pointsTo_share (PosShare.mem_left_op_right fullShare)).1 $$ H10
  icases H10 with ⟨H10l, H10r⟩
  isplitl [H8l]; · iexact H8l
  isplitl [H10l]; · iexact H10l
  isplitl [H8r]; · iexact H8r
  isplitl [H10r]; · iexact H10r
  isplitl [H1]; · iexact H1
  iexact H11

/-- And back: the halves of each shared buffer are joined. -/
theorem bufs_of_arrays (c : Dev nD) (W : (b : Ref sig .tc) → Buf (Elt F) ((c.tc : Thread nD τ).loc b))
    (Fw : (w : Fin cfg0.W) → Buf (Elt F) ((cfg0.win w).arr.view.loc (c.tc : Thread nD τ)))
    (h0 : Fw 0 = W main_v8) (h1 : Fw 1 = W main_v10) (h2 : Fw 2 = W main_v8) (h3 : Fw 3 = W main_v10) (h4 : Fw 4 = W main_arg1) (h5 : Fw 5 = W main_v11) :
    ((dats m 0 c).arrays Fw : sProp 𝕄) ⊢ arrBufs spec0 c W := by
  rw [arrays_chain, arrBufs_chain, h0, h1, h2, h3, h4, h5]
  iintro ⟨H8l, H10l, H8r, H10r, H1, H11⟩
  isplitl [H8l H8r]
  · iapply (pointsTo_share (PosShare.mem_left_op_right fullShare)).2
    isplitl [H8l]; · iexact H8l
    iexact H8r
  isplitl [H10l H10r]
  · iapply (pointsTo_share (PosShare.mem_left_op_right fullShare)).2
    isplitl [H10l]; · iexact H10l
    iexact H10r
  isplitl [H1]; · iexact H1
  iexact H11

/-! ## The buffers when the region is left, and at the end -/

/-- The result array after the region's write-backs. -/
abbrev outArr (c : Dev nD) : Buf (Elt F) ((c.tc : Thread nD τ).loc main_v11) := (dats m 0 c).arrAt 5 cfg0.N

/-- The device's buffer contents when the region is left: the result array at what the write-back left, every other
    buffer as the region found it. -/
def Wexit (c : Dev nD) : Valuation τ sig (Elt F) := (StableHlo.nullary main_v11 (outArr m c)).result (V0 m c)

theorem Wexit_out (c : Dev nD) : Wexit m c (Proc.devRef .tc main_v11) = outArr m c :=
  StableHlo.nullary_result main_v11 (outArr m c) _ (V0 m c)

theorem Wexit_of_ne (c : Dev nD) (b : Ref sig .tc) (hb : b ≠ main_v11) : Wexit m c (Proc.devRef .tc b) = V0 m c (Proc.devRef .tc b) :=
  HloOp.result_of_not_mem _ _ (by rw [StableHlo.nullary_writes, Finset.mem_singleton]; exact StableHlo.devRef_ne_of_ne hb)

/-- The device's buffer contents at the end: the three host operations after the region, from the exit contents. -/
def Wend (c : Dev nD) : Valuation τ sig (Elt F) := StableHlo.after hostOps1 (Wexit m c)

/-- The operations after the region write only their own three results. -/
theorem Wend_of_not_written (c : Dev nD) (b : Ref sig .tc) (h12 : b ≠ main_v12) (hc : b ≠ main_cst_0) (h13 : b ≠ main_v13) :
    Wend m c (Proc.devRef .tc b) = Wexit m c (Proc.devRef .tc b) :=
  StableHlo.after_of_forall_not_mem (b := Proc.devRef .tc b) _ _ (List.forall_iff_forall_mem.mp (by
    simp only [hostOps1, List.Forall, StableHlo.nullary_writes, StableHlo.binary_writes, StableHlo.reshape_writes, Finset.mem_singleton]
    exact ⟨StableHlo.devRef_ne_of_ne h12, StableHlo.devRef_ne_of_ne hc, StableHlo.devRef_ne_of_ne h13⟩))

end Cert.Kernel.Fr

end
-- ==== Proof.Bits.Region.lean ====
/-
  The launch of the region, and what the program's run leaves in memory.

  The launch theorem that fits is the one for windows that may share an array: the buffers behind the arrays are
  dealt among the windows as the proof data's shares say (each normalized view in halves).  After the region the
  halves are joined, the three host operations that follow run holding every unscoped buffer at the exit contents,
  and the buffers are dealt out again for the final read.  The run ends with the result buffer at the end contents'
  value — the accumulator's final value reshaped to a scalar and divided by 2^26 — and the two arguments unchanged.
-/
import proofs.«125349_j36593121362411_1_alg».proof.Proof.Bits.Exit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrBufs arrRef unscopedRest)

variable (m : (ℓ : Loc nD τ sig) → Buf (Elt F) ℓ) (ρ : Dev nD → PrngReg)

/-! ## Buffers no host operation before the region writes -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))

/-! ## The arrays' contents at the region's exit, as the exit valuation's -/

theorem arrAt_in0 (c : Dev nD) (n : ℕ) : (dats m 0 c).arrAt 0 n = Wexit m c (Proc.devRef .tc main_v8) :=
  ((dats m 0 c).arrAt_in 0 rfl n).trans ((A_eq m c 0).trans (Wexit_of_ne m c main_v8 (by decide)).symm)
theorem arrAt_in1 (c : Dev nD) (n : ℕ) : (dats m 0 c).arrAt 1 n = Wexit m c (Proc.devRef .tc main_v10) :=
  ((dats m 0 c).arrAt_in 1 rfl n).trans ((A_eq m c 1).trans (Wexit_of_ne m c main_v10 (by decide)).symm)
theorem arrAt_in2 (c : Dev nD) (n : ℕ) : (dats m 0 c).arrAt 2 n = Wexit m c (Proc.devRef .tc main_v8) :=
  ((dats m 0 c).arrAt_in 2 rfl n).trans ((A_eq m c 2).trans (Wexit_of_ne m c main_v8 (by decide)).symm)
theorem arrAt_in3 (c : Dev nD) (n : ℕ) : (dats m 0 c).arrAt 3 n = Wexit m c (Proc.devRef .tc main_v10) :=
  ((dats m 0 c).arrAt_in 3 rfl n).trans ((A_eq m c 3).trans (Wexit_of_ne m c main_v10 (by decide)).symm)
theorem arrAt_in4 (c : Dev nD) (n : ℕ) : (dats m 0 c).arrAt 4 n = Wexit m c (Proc.devRef .tc main_arg1) :=
  ((dats m 0 c).arrAt_in 4 rfl n).trans ((A_eq m c 4).trans (Wexit_of_ne m c main_arg1 (by decide)).symm)

/-! ## The lines after the region -/

/-- What bypasses the region: the unscoped buffers that are no window's array, as the region found them. -/
abbrev Zin (c : Dev nD) : sProp 𝕄 := unscopedRest (Ix := Unit) (Name := ℕ) (U := UR sig nD τ) (Lvl := ℕ) spec0 c (V m c)
/-- The same buffers at the end contents. -/
abbrev Zend (c : Dev nD) : sProp 𝕄 := unscopedRest (Ix := Unit) (Name := ℕ) (U := UR sig nD τ) (Lvl := ℕ) spec0 c (fun b => Wend m c (Proc.devRef .tc b))

theorem hostOps1_in : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem hostOps1_nofresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- A window's array is not among the bypassing buffers, so those read the exit valuation as the entry one. -/
theorem Zin_exit (c : Dev nD) : (Zin m c : sProp 𝕄) = unscopedRest (Ix := Unit) (Name := ℕ) (U := UR sig nD τ) (Lvl := ℕ) spec0 c (fun b => Wexit m c (Proc.devRef .tc b)) := by
  unfold Pipeline.unscopedRest
  exact bigSep_congr fun b hb => by
    dsimp only
    rw [Wexit_of_ne m c b fun e => (Finset.mem_sdiff.mp hb).2 (Finset.mem_image.mpr ⟨5, Finset.mem_univ _, e.symm⟩)]

set_option backward.isDefEq.respectTransparency.types false in
/-- From the region's exit — the boundary, the windows' arrays at their final contents, the bypassing buffers as found —
    the three operations run, and hand back the arrays as they were and the bypassing buffers at the end contents. -/
theorem htail (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N) ∗ Zin m c)
      ⊢ wp frame (wpE (defs (F := F)) (Variants.lift Variants.none) (c.tc : Thread nD τ) none) Set.univ (Pipeline.chain (([hostOps1] : List (List (HloOp τ sig (Elt F)))).map StableHlo.seq ++ [])) Q' := by
  have hW : (StableHlo.held (c.tc : Thread nD τ) (Pipeline.ucRefs τ sig) (Wexit m c) : sProp 𝕄)
      = iprop(arrBufs spec0 c (fun b => Wexit m c (Proc.devRef .tc b)) ∗ Zin m c) := by
    rw [← Pipeline.unscopedBufs_held (Ix := Unit) (Name := ℕ) (U := UR sig nD τ) (Lvl := ℕ) c (Wexit m c),
      Pipeline.unscopedBufs_split₀ cfgs (0 : Fin 1) winFacts₀0.arr_unscoped c, Zin_exit]
  have hW' : (StableHlo.held (c.tc : Thread nD τ) (Pipeline.ucRefs τ sig) (Wend m c) : sProp 𝕄)
      = iprop(arrBufs spec0 c (fun b => Wend m c (Proc.devRef .tc b)) ∗ Zend m c) := by
    rw [← Pipeline.unscopedBufs_held (Ix := Unit) (Name := ℕ) (U := UR sig nD τ) (Lvl := ℕ) c (Wend m c),
      Pipeline.unscopedBufs_split₀ cfgs (0 : Fin 1) winFacts₀0.arr_unscoped c]
  have hpre : iprop((dats m 0 c).arrays ((dats m 0 c).arrAt · cfg0.N) ∗ Zin m c)
      ⊢ (StableHlo.held (c.tc : Thread nD τ) (Pipeline.ucRefs τ sig) (Wexit m c) : sProp 𝕄) := by
    rw [hW]
    iintro ⟨Ha, Hz⟩
    isplitl [Ha]
    · iapply (bufs_of_arrays m c (fun b => Wexit m c (Proc.devRef .tc b)) ((dats m 0 c).arrAt · cfg0.N) (arrAt_in0 m c _) (arrAt_in1 m c _) (arrAt_in2 m c _) (arrAt_in3 m c _) (arrAt_in4 m c _) (Wexit_out m c).symm)
      iexact Ha
    iexact Hz
  have hpost : (StableHlo.held (c.tc : Thread nD τ) (Pipeline.ucRefs τ sig) (StableHlo.after [hostOps1].flatten (Wexit m c)) : sProp 𝕄)
      ⊢ iprop((dats m 0 c).arrays ((dats m 0 c).arrAt · cfg0.N) ∗ Zend m c) := by
    rw [show StableHlo.after [hostOps1].flatten (Wexit m c) = Wend m c from by simp only [List.flatten_cons, List.flatten_nil, List.append_nil]; rfl, hW']
    iintro ⟨Ha, Hz⟩
    isplitl [Ha]
    · iapply (arrays_of_bufs m c (fun b => Wend m c (Proc.devRef .tc b)) ((dats m 0 c).arrAt · cfg0.N)
        ((arrAt_in0 m c _).trans (Wend_of_not_written m c main_v8 (by decide) (by decide) (by decide)).symm)
        ((arrAt_in1 m c _).trans (Wend_of_not_written m c main_v10 (by decide) (by decide) (by decide)).symm)
        ((arrAt_in2 m c _).trans (Wend_of_not_written m c main_v8 (by decide) (by decide) (by decide)).symm)
        ((arrAt_in3 m c _).trans (Wend_of_not_written m c main_v10 (by decide) (by decide) (by decide)).symm)
        ((arrAt_in4 m c _).trans (Wend_of_not_written m c main_arg1 (by decide) (by decide) (by decide)).symm)
        ((Wexit_out m c).symm.trans (Wend_of_not_written m c main_v11 (by decide) (by decide) (by decide)).symm))
      iexact Ha
    iexact Hz
  iintro ⟨Hk, Hb, Ha, Hz⟩
  ihave H := hpre $$ [Ha Hz]
  · isplitl [Ha]; · iexact Ha
    iexact Hz
  iapply (Pipeline.wp_seqs_then (fun q => (cfgs q).toPCfg (Val := Elt F)) defs₀ Variants.none c (Pipeline.ucRefs τ sig) [] [hostOps1] hostOps1_in hostOps1_nofresh (Wexit m c)) $$ [Hb H]
  · isplitl [Hb]; · iexact Hb
    iexact H
  iintro Hb
  rw [Pipeline.chain_nil, wp_pure]
  imodintro
  iapply Hk
  icases Hb with ⟨-, H⟩
  iapply hpost
  iexact H

/-! ## The run -/

set_option backward.isDefEq.respectTransparency.types false in
/-- Every weakly fair execution of @main terminates, and the final memory has the result buffer at the end contents'
    value and the two arguments at their launch contents. -/
theorem run_main : θ_run defs (onTc (τ := τ) (main (F := F))) (s₀ m ρ) (fun r => ∀ c : Dev nD,
      r.2.mem ((c.tc : Thread nD τ).loc main_v13) = Wend m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_pf_tail (fun p => (cfgs p).toPCfg (Val := Elt F)) (fun p => (cfgs p).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp))
    (u₀ := initOf (Pipeline.cells (Pipeline.pin (fun p => (cfgs p).toPCfg (Val := Elt F)) fun p => (cfgs p).toPCfg_adm) cellOf_inj) (Pipeline.launchToks (Pipeline.pin (fun p => (cfgs p).toPCfg (Val := Elt F)) fun p => (cfgs p).toPCfg_adm) cellOf_inj))
    (hu₀ := by
      iintro Hu; imodintro
      isplitl [Hu]
      · iapply (show (ownU _ : sProp 𝕄) ⊢ BI.own (emb₁ (initOf (Pipeline.cells (Pipeline.pin (fun p => (cfgs p).toPCfg (Val := Elt F)) fun p => (cfgs p).toPCfg_adm) cellOf_inj) (Pipeline.launchToks (Pipeline.pin (fun p => (cfgs p).toPCfg (Val := Elt F)) fun p => (cfgs p).toPCfg_adm) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c) ((dats m 0 c).arrAt · 0) (A_eq m c 0) (A_eq m c 1) (A_eq m c 2) (A_eq m c 3) (A_eq m c 4) (A_eq m c 5))
    (hpf := fun _ k => k.elim0)
    (X := fun c => iprop(∃ r, prngReg c r)) (Y := fun c => iprop(∃ r, prngReg c r))
    (Z := fun c => Zin m c) (Z' := fun c => Zend m c)
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefs sig spec0, s.mem ((c.tc : Thread nD τ).loc b) = Wend m c (Proc.devRef .tc b))
    (hY := fun c s' => by
      iintro ⟨-, HU, HSI⟩
      unfold Zend unscopedRest
      imodintro
      iapply (pointsTo_read_all (Pipeline.restRefs sig spec0) (fun b => (c.tc : Thread nD τ).loc b) (fun b => Wend m c (Proc.devRef .tc b)) s')
      isplitl [HU] <;> iassumption)
    (hQ := fun s h c => ⟨(h c).2.2 main_v13 (Pipeline.mem_restRefs_of main_v13 rfl (by decide)),
      ((h c).2.2 main_arg0 (Pipeline.mem_restRefs_of main_arg0 rfl (by decide))).trans
        ((Wend_of_not_written m c main_arg0 (by decide) (by decide) (by decide)).trans ((Wexit_of_ne m c main_arg0 (by decide)).trans (V_main_arg0 m c))),
      ((h c).1 4).trans (((dats m 0 c).arrAt_in 4 rfl _).trans ((A_eq m c 4).trans (V_main_arg1 m c)))⟩)

/-- info: 'Cert.Kernel.Fr.run_main' depends on axioms: [propext, Classical.choice, Quot.sound] -/
#guard_msgs in #print axioms run_main

/-- The frame: the program runs, and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Fr

end
-- ==== Proof.Ideal.Base.lean ====
/-
  The idealized kernel's program around its one region, and the bookkeeping every later module is stated over.

  @main is three stretches of host operations (the transpose; the norm's five operations; ten more ending in the two
  per-view slices), the region, and three host operations after it (reshape the 1×1 result, the constant 2^26, the
  quotient).  `V0` is the device's buffer contents when the region is entered: the three stretches folded over the
  launch memory.  The region walks an 8×8 grid, point `t` being tile (t / 8, t % 8).  Window `w`'s block at a point is
  `iblk w t`: windows 0 and 1 read row tile t / 8 of the two normalized views, windows 2 and 3 column tile t % 8 of
  the same two arrays (so windows 0, 2 share one array and 1, 3 another), window 4 reads tile (t / 8, t % 8) of the
  target matrix, and window 5 is the 1×1 result, stored only at the last point.  The body has two conditionals on
  the coordinates: the first holds exactly at point 0 (the accumulator is cleared), the second exactly at point 63
  (the accumulator is copied to the result).
-/
import proofs.«125349_j36593121362411_1_alg».proof.Proof.Gen.KernelIdeal.Launch
import proofs.«125349_j36593121362411_1_alg».proof.Proof.Gen.KernelIdeal.Skeleton
import proofs.«125349_j36593121362411_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The device's buffer contents when the region is entered: the host operations before it, folded over the launch memory. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the three operations after it, the unscoped buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a row tile is
    fetched once per eight points and found in place at the other seven): for any proof data whose array is the
    entry contents and whose body leaves the block where it was.  One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals, decided over the grid -/

/-- The first conditional: both coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second conditional: both coordinates are seven. -/
abbrev cond0_1 (i : grid0.Coords) : Prop := k0_cond2 i = 1#1
/-- It holds at the last point only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the second conditional fails the result window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it holds the window is live. -/
theorem liveAt0_5 : ∀ t : Fin cfg0.N, cond0_1 (grid0.coords t) → cfg0.idle 5 (grid0.coords t) = false := by decide +kernel

/-! ## The staging memrefs the body is called with -/

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
/-- The accumulator: a scoped buffer of the kernel's own, passed beside the windows. -/
abbrev scM : Memref sig .tc .vmem S1x1 .f32 := Memref.whole cc0_scratch0
/-- The views the accumulator's and the result buffer's contents are stated through. -/
abbrev VS : View sig .tc .vmem S1x1 .f32 := scM.view
abbrev VO : View sig .tc .vmem S1x1 .f32 := (Memref.whole cc0_stg5_0 : Memref sig .tc .vmem S1x1 .f32).view

/-- The invariant the launch hands the region: the accumulator at some contents and the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Fr

end
-- ==== Proof.Ideal.RunFirst.lean ====
/-
  The body at the first grid point (both coordinates zero, so the first conditional is taken and the second is not):
  the accumulator, found at whatever it held, is overwritten with the zero splat, read back, and overwritten again
  with that value plus the tile's two sums of squared differences; the result window is not touched.  The run finds
  the list of stores the accumulator ends with.
-/
import proofs.«125349_j36593121362411_1_alg».proof.Proof.Ideal.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the first point leaves in the accumulator (last first), with the proof that from the inputs' buffers
    at their contents, the result buffer at contents it hands back untouched and the accumulator at anything, the
    body runs to the continuation holding the inputs as they were and the accumulator with those stores written. -/
noncomputable def runFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1024x128 .bf16) (x4 : Vec F S1024x1024 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__sim_distill_kernel i arg2 harg2 arg3 harg3 arg4 harg4 arg5 harg5 arg6 harg6 arg7 harg7 arg8 harg8) K } := by
  refine ⟨?_, fun xo E K => ?run⟩
  case run =>
    simp only [cc0__sim_distill_kernel_eq_skeleton]; unfold cc0__sim_distill_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Fr

end
-- ==== Proof.Ideal.RunMid.lean ====
/-
  The body at a grid point that is neither the first nor the last (neither conditional taken): the accumulator,
  found at what the point before left, is overwritten with that value plus the tile's two sums of squared
  differences; the result window is not touched.  The run finds the one store the accumulator ends with.
-/
import proofs.«125349_j36593121362411_1_alg».proof.Proof.Ideal.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The store a middle point leaves in the accumulator, with the proof that from the inputs' buffers at their
    contents, the result buffer at contents it hands back untouched and the accumulator at the contents the point
    before left, the body runs to the continuation holding the inputs as they were and the accumulator with that
    store written. -/
noncomputable def runMid (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1024x128 .bf16) (x4 : Vec F S1024x1024 .f32) (xs : Vec F S1x1 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__sim_distill_kernel i arg2 harg2 arg3 harg3 arg4 harg4 arg5 harg5 arg6 harg6 arg7 harg7 arg8 harg8) K } := by
  refine ⟨?_, fun xo E K => ?run⟩
  case run =>
    simp only [cc0__sim_distill_kernel_eq_skeleton]; unfold cc0__sim_distill_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Fr

end
-- ==== Proof.Ideal.RunLast.lean ====
/-
  The body at the last grid point (both coordinates seven: the first conditional is not taken, the second is): the
  accumulator, found at what the point before left, is overwritten with that value plus the tile's two sums of
  squared differences, read back, and stored into the result window's buffer.  The run finds the stores the result
  buffer and the accumulator end with.
-/
import proofs.«125349_j36593121362411_1_alg».proof.Proof.Ideal.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the last point leaves in the result buffer and in the accumulator, with the proof that from the
    inputs' buffers at their contents, the result buffer at anything and the accumulator at the contents the point
    before left, the body runs to the continuation holding the inputs as they were and both buffers with their
    stores written. -/
noncomputable def runLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1024x128 .bf16) (x4 : Vec F S1024x1024 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__sim_distill_kernel i arg2 harg2 arg3 harg3 arg4 harg4 arg5 harg5 arg6 harg6 arg7 harg7 arg8 harg8) K } := by
  refine ⟨?_, ?_, fun E K => ?run⟩
  case run =>
    simp only [cc0__sim_distill_kernel_eq_skeleton]; unfold cc0__sim_distill_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Fr

end
-- ==== Proof.Ideal.Data.lean ====
/-
  What the accumulator holds after each grid point, and the proof data of the region.

  After point 0 the accumulator holds what the first point's stores leave; after every later point what that
  point's store leaves, computed from the tile's blocks and from what the point before left (`accAt`, by recursion on
  the point).  The result window's buffer is stored only at the last point, with the accumulator's final value.
  Between points the invariant holds the accumulator at `accAt` of the point before.  The two normalized views are
  each read through two windows (a row tile and a column tile): each of those windows holds one half of its array.
  The body obligation is a case split on the point — first, last, or in between — each case closed by that case's run.
-/
import proofs.«125349_j36593121362411_1_alg».proof.Proof.Ideal.RunFirst
import proofs.«125349_j36593121362411_1_alg».proof.Proof.Ideal.RunMid
import proofs.«125349_j36593121362411_1_alg».proof.Proof.Ideal.RunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator and in the result buffer -/

theorem scoverFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1024x128 .bf16) (x4 : Vec F S1024x1024 .f32) (y : S1x1.Idx) :
    ∃ pc ∈ (runFirst c i arg2 harg2 arg3 harg3 arg4 harg4 arg5 harg5 arg6 harg6 arg7 harg7 arg8 harg8 hc0 hc1 x0 x1 x2 x3 x4).1, y ∈ pc.1.set :=
  View.cover_of_tiledL (runFirst c i arg2 harg2 arg3 harg3 arg4 harg4 arg5 harg5 arg6 harg6 arg7 harg7 arg8 harg8 hc0 hc1 x0 x1 x2 x3 x4).1 S1x1.size (by sl_kernel_rfl) y

/-- What the first point leaves in the accumulator: its stores read back. -/
def soutFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1024x128 .bf16) (x4 : Vec F S1024x1024 .f32) : Vec F S1x1 .f32 :=
  VS.read (Elt F) (VS.writes (Elt F) VS.junk (runFirst c i arg2 harg2 arg3 harg3 arg4 harg4 arg5 harg5 arg6 harg6 arg7 harg7 arg8 harg8 hc0 hc1 x0 x1 x2 x3 x4).1)

theorem scoverMid (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1024x128 .bf16) (x4 : Vec F S1024x1024 .f32) (xs : Vec F S1x1 .f32) (y : S1x1.Idx) :
    ∃ pc ∈ (runMid c i arg2 harg2 arg3 harg3 arg4 harg4 arg5 harg5 arg6 harg6 arg7 harg7 arg8 harg8 hc0 hc1 x0 x1 x2 x3 x4 xs).1, y ∈ pc.1.set :=
  View.cover_of_tiledL (runMid c i arg2 harg2 arg3 harg3 arg4 harg4 arg5 harg5 arg6 harg6 arg7 harg7 arg8 harg8 hc0 hc1 x0 x1 x2 x3 x4 xs).1 S1x1.size (by sl_kernel_rfl) y

/-- What a middle point leaves in the accumulator. -/
def soutMid (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1024x128 .bf16) (x4 : Vec F S1024x1024 .f32) (xs : Vec F S1x1 .f32) : Vec F S1x1 .f32 :=
  VS.read (Elt F) (VS.writes (Elt F) VS.junk (runMid c i arg2 harg2 arg3 harg3 arg4 harg4 arg5 harg5 arg6 harg6 arg7 harg7 arg8 harg8 hc0 hc1 x0 x1 x2 x3 x4 xs).1)

theorem scoverLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1024x128 .bf16) (x4 : Vec F S1024x1024 .f32) (xs : Vec F S1x1 .f32) (y : S1x1.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S1x1.size (by sl_kernel_rfl) y

/-- What the last point leaves in the accumulator. -/
def soutLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1024x128 .bf16) (x4 : Vec F S1024x1024 .f32) (xs : Vec F S1x1 .f32) : Vec F S1x1 .f32 :=
  VS.read (Elt F) (VS.writes (Elt F) VS.junk (runLast c i arg2 harg2 arg3 harg3 arg4 harg4 arg5 harg5 arg6 harg6 arg7 harg7 arg8 harg8 hc0 hc1 x0 x1 x2 x3 x4 xs).2.1)

theorem coverLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1024x128 .bf16) (x4 : Vec F S1024x1024 .f32) (xs : Vec F S1x1 .f32) (y : S1x1.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S1x1.size (by sl_kernel_rfl) y

/-- What the last point leaves in the result window's buffer. -/
def outLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1024x128 .bf16) (x4 : Vec F S1024x1024 .f32) (xs : Vec F S1x1 .f32) : Vec F S1x1 .f32 :=
  VO.read (Elt F) (VO.writes (Elt F) VO.junk (runLast c i arg2 harg2 arg3 harg3 arg4 harg4 arg5 harg5 arg6 harg6 arg7 harg7 arg8 harg8 hc0 hc1 x0 x1 x2 x3 x4 xs).1)

/-! ## The accumulation -/

theorem N64 : cfg0.N = 64 := N_0

/-- What the accumulator holds after the body at position `n`: the first point's stores at 0; afterwards the point's
    store over what the point before left. -/
def accAt (c : Dev nD) : (n : ℕ) → n < cfg0.N → Vec F S1x1 .f32
  | 0, hn => soutFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM (Memref.isWhole_whole _) ((hcond0_0 ⟨0, hn⟩).mpr (Nat.zero_mod _)) (fun h => (fun h' => by (try dsimp only at h'); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩)
  | n + 1, hn =>
    if h1 : (n + 1) % 64 = 63 then
      soutLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM (Memref.isWhole_whole _) (fun h => (fun h' => by have hN : n + 1 < 64 := lt_of_lt_of_eq hn N64; (try dsimp only at h'); omega) ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))
    else
      soutMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM (Memref.isWhole_whole _) (fun h => (fun h' => by have hN : n + 1 < 64 := lt_of_lt_of_eq hn N64; (try dsimp only at h'); omega) ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))

theorem accAt_first (c : Dev nD) (t : Fin cfg0.N) (h0 : t.val % 64 = 0) (h1 : ¬t.val % 64 = 63) :
    accAt m c t.val t.isLt = soutFirst c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) ((hcond0_0 t).mpr h0) (fun h => h1 ((hcond0_1 t).mp h)) (iblk m c 0 t) (iblk m c 1 t) (iblk m c 2 t) (iblk m c 3 t) (iblk m c 4 t) := by
  obtain ⟨n, hn⟩ := t
  cases n with
  | zero => exact rfl
  | succ n => exact (by exfalso; have hN : n + 1 < 64 := lt_of_lt_of_eq hn N64; (try dsimp only at h0); omega)

theorem accAt_mid (c : Dev nD) (t : Fin cfg0.N) (h0 : ¬t.val % 64 = 0) (h1 : ¬t.val % 64 = 63) :
    accAt m c t.val t.isLt = soutMid c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun h => h0 ((hcond0_0 t).mp h)) (fun h => h1 ((hcond0_1 t).mp h)) (iblk m c 0 t) (iblk m c 1 t) (iblk m c 2 t) (iblk m c 3 t) (iblk m c 4 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem accAt_last (c : Dev nD) (t : Fin cfg0.N) (h0 : ¬t.val % 64 = 0) (h1 : t.val % 64 = 63) :
    accAt m c t.val t.isLt = soutLast c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun h => h0 ((hcond0_0 t).mp h)) ((hcond0_1 t).mpr h1) (iblk m c 0 t) (iblk m c 1 t) (iblk m c 2 t) (iblk m c 3 t) (iblk m c 4 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-- What the result window's buffer holds after the body at point `t`: at the last point the accumulator's value
    stored there; elsewhere the window is idle and this is a placeholder nothing consults. -/
def outAt (c : Dev nD) (t : Fin cfg0.N) : Vec F S1x1 .f32 :=
  if h1 : t.val % 64 = 63 then
    outLast c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun h => (fun h' => by omega) ((hcond0_0 t).mp h)) ((hcond0_1 t).mpr h1) (iblk m c 0 t) (iblk m c 1 t) (iblk m c 2 t) (iblk m c 3 t) (iblk m c 4 t) (accAt m c (t.val - 1) (Nat.lt_of_le_of_lt (Nat.sub_le _ _) t.isLt))
  else VO.read (Elt F) VO.junk

theorem outAt_last (c : Dev nD) (t : Fin cfg0.N) (h0 : ¬t.val % 64 = 0) (h1 : t.val % 64 = 63) :
    outAt m c t = outLast c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun h => h0 ((hcond0_0 t).mp h)) ((hcond0_1 t).mpr h1) (iblk m c 0 t) (iblk m c 1 t) (iblk m c 2 t) (iblk m c 3 t) (iblk m c 4 t) (accAt m c (t.val - 1) (Nat.lt_of_le_of_lt (Nat.sub_le _ _) t.isLt)) := by
  unfold outAt; exact (dif_pos h1).trans rfl

/-! ## The invariant between points -/

/-- Before the first point the accumulator is at anything; before any later point it is at what the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The region's proof data on one device: the arrays as the region finds them; after the body each input's buffer
    still at its block and the result's at `outAt`; the invariant `PhiS`; nothing owed; each of the two normalized
    views held in halves by its row window and its column window, the target matrix at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]
theorem leaves_in4 (c : Dev nD) (t : Fin cfg0.N) : (dats m 0 c).leavesExact 4 t = owns (c : Thread nD τ) (ms0_4 t) fullShare (iblk m c 4 t) := by
  unfold Dat.leavesExact; rw [liveAt0_4 t, after0_4]

set_option maxHeartbeats 4800000 in
/-- The body at any point: the inputs' buffers hold their blocks; the closed forms say which case the point is in;
    that case's run applies; the invariant hands the accumulator over at what the point before left (at anything at
    the first point) and takes it back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4]
  have hN : t.val < 64 := lt_of_lt_of_eq t.isLt N64
  by_cases h0 : t.val % 64 = 0
  · have h1 : ¬t.val % 64 = 63 := by omega
    have hz : t.val = 0 := by omega
    rw [Dat.leavesExact_idle (dats m 0 c) 5 t (idleAt0_5 t (fun h => h1 ((hcond0_1 t).mp h))) (noFlush0_5 t (fun h => h1 ((hcond0_1 t).mp h)))]
    rw [accAt_first m c t h0 h1]
    unfold soutFirst; (try dsimp only)
    rw [PhiS_castSucc m c t, PhiS_zero m c _ _ hz, PhiA0_eq]
    iintro ⟨⟨HS, Hg⟩, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2 _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, ⟨%es, HS⟩⟩
    isplitl [HS Hg]
    · isplitl [HS]
      · unfold owns; iexists _; isplitr
        swap; · iexact HS
        ipureintro; exact View.read_writes_of_cover _ _ _ _ _ (scoverFirst c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h1 : t.val % 64 = 63
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [accAt_last m c t h0 h1, outAt_last m c t h0 h1]
      unfold soutLast outLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (scoverLast c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast c _ _ _ _ _ _ _ _ _ _ _ _ _ _ _ _ _ _ _ _ _ _ _)
    · rw [Dat.leavesExact_idle (dats m 0 c) 5 t (idleAt0_5 t (fun h => h1 ((hcond0_1 t).mp h))) (noFlush0_5 t (fun h => h1 ((hcond0_1 t).mp h)))]
      rw [accAt_mid m c t h0 h1]
      unfold soutMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (scoverMid c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the accumulator's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N64; omega), PhiA0_eq]
  iintro ⟨HS, Hg⟩
  isplitl [HS]
  · iexists _; iexact HS
  iexact Hg

end Cert.KernelIdeal.Fr

end
-- ==== Proof.Ideal.Exit.lean ====
/-
  How the region's arrays are held, and what the device's buffers hold when the region is left and when the program ends.

  Two of the region's arrays are each read through two windows.  The buffers behind the arrays, each whole at the
  full share, are dealt among the windows: each normalized view's full share is split into its two halves, one for
  its row window and one for its column window; the target matrix and the result go whole to their one window
  (`arrays_of_bufs`), and the halves join again (`bufs_of_arrays`).  When the region is left the result array holds
  what its one write-back left and every other buffer what the region found (`Wexit`); the three host operations
  that follow — reshape to a scalar, the constant 2^26, the quotient — give the final contents (`Wend`).
-/
import proofs.«125349_j36593121362411_1_alg».proof.Proof.Ideal.Data
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrBufs arrRef unscopedRest)

variable (m : (ℓ : Loc nD τ sig) → Buf (Elt F) ℓ) (ρ : Dev nD → PrngReg)

/-! ## Dealing the arrays' buffers among the windows -/

/-- The distinct buffers behind the six windows' arrays. -/
theorem arrImage : Finset.univ.image (arrRef spec0) = [main_v8, main_v10, main_arg1, main_v11].toFinset := by decide

theorem share0 (c : Dev nD) : (dats m 0 c).share 0 = fullShare.left := rfl
theorem share1 (c : Dev nD) : (dats m 0 c).share 1 = fullShare.left := rfl
theorem share2 (c : Dev nD) : (dats m 0 c).share 2 = fullShare.right := rfl
theorem share3 (c : Dev nD) : (dats m 0 c).share 3 = fullShare.right := rfl
theorem share4 (c : Dev nD) : (dats m 0 c).share 4 = fullShare := rfl
theorem share5 (c : Dev nD) : (dats m 0 c).share 5 = fullShare := rfl

/-- The windows' arrays, window by window, each a whole buffer at its window's share. -/
theorem arrays_chain (c : Dev nD) (Fw : (w : Fin cfg0.W) → Buf (Elt F) ((cfg0.win w).arr.view.loc (c.tc : Thread nD τ))) :
    ((dats m 0 c).arrays Fw : sProp 𝕄)
      = iprop((((c.tc : Thread nD τ).loc main_v8) ↦{fullShare.left} Fw 0) ∗ (((c.tc : Thread nD τ).loc main_v10) ↦{fullShare.left} Fw 1)
          ∗ (((c.tc : Thread nD τ).loc main_v8) ↦{fullShare.right} Fw 2) ∗ (((c.tc : Thread nD τ).loc main_v10) ↦{fullShare.right} Fw 3)
          ∗ (((c.tc : Thread nD τ).loc main_arg1) ↦{fullShare} Fw 4) ∗ (((c.tc : Thread nD τ).loc main_v11) ↦{fullShare} Fw 5)) := by
  have h : ((dats m 0 c).arrays Fw : sProp 𝕄)
      = bigSep Finset.univ fun w => (((c.tc : Thread nD τ).loc (arrRef spec0 w)) ↦{(dats m 0 c).share w} Fw w : sProp 𝕄) := by
    unfold Dat.arrays
    exact bigSep_congr fun w _ => by rw [(arr_whole0 w).set_eq_univ]
  rw [h, bigSep_W0, share0, share1, share2, share3, share4, share5]

/-- The distinct buffers, each whole at the full share. -/
theorem arrBufs_chain (c : Dev nD) (W : (b : Ref sig .tc) → Buf (Elt F) ((c.tc : Thread nD τ).loc b)) :
    (arrBufs spec0 c W : sProp 𝕄)
      = iprop((((c.tc : Thread nD τ).loc main_v8) ↦{fullShare} W main_v8) ∗ (((c.tc : Thread nD τ).loc main_v10) ↦{fullShare} W main_v10)
          ∗ (((c.tc : Thread nD τ).loc main_arg1) ↦{fullShare} W main_arg1) ∗ (((c.tc : Thread nD τ).loc main_v11) ↦{fullShare} W main_v11)) := by
  unfold Pipeline.arrBufs
  rw [bigSep_eq_bigSepL_of_eq [main_v8, main_v10, main_arg1, main_v11] arrImage (by decide)]
  rfl

/-- From the buffers at contents `W` to the windows' arrays at the same contents: each shared buffer is split in halves. -/
theorem arrays_of_bufs (c : Dev nD) (W : (b : Ref sig .tc) → Buf (Elt F) ((c.tc : Thread nD τ).loc b))
    (Fw : (w : Fin cfg0.W) → Buf (Elt F) ((cfg0.win w).arr.view.loc (c.tc : Thread nD τ)))
    (h0 : Fw 0 = W main_v8) (h1 : Fw 1 = W main_v10) (h2 : Fw 2 = W main_v8) (h3 : Fw 3 = W main_v10) (h4 : Fw 4 = W main_arg1) (h5 : Fw 5 = W main_v11) :
    (arrBufs spec0 c W : sProp 𝕄) ⊢ (dats m 0 c).arrays Fw := by
  rw [arrays_chain, arrBufs_chain, h0, h1, h2, h3, h4, h5]
  iintro ⟨H8, H10, H1, H11⟩
  ihave H8 := (pointsTo_share (PosShare.mem_left_op_right fullShare)).1 $$ H8
  icases H8 with ⟨H8l, H8r⟩
  ihave H10 := (pointsTo_share (PosShare.mem_left_op_right fullShare)).1 $$ H10
  icases H10 with ⟨H10l, H10r⟩
  isplitl [H8l]; · iexact H8l
  isplitl [H10l]; · iexact H10l
  isplitl [H8r]; · iexact H8r
  isplitl [H10r]; · iexact H10r
  isplitl [H1]; · iexact H1
  iexact H11

/-- And back: the halves of each shared buffer are joined. -/
theorem bufs_of_arrays (c : Dev nD) (W : (b : Ref sig .tc) → Buf (Elt F) ((c.tc : Thread nD τ).loc b))
    (Fw : (w : Fin cfg0.W) → Buf (Elt F) ((cfg0.win w).arr.view.loc (c.tc : Thread nD τ)))
    (h0 : Fw 0 = W main_v8) (h1 : Fw 1 = W main_v10) (h2 : Fw 2 = W main_v8) (h3 : Fw 3 = W main_v10) (h4 : Fw 4 = W main_arg1) (h5 : Fw 5 = W main_v11) :
    ((dats m 0 c).arrays Fw : sProp 𝕄) ⊢ arrBufs spec0 c W := by
  rw [arrays_chain, arrBufs_chain, h0, h1, h2, h3, h4, h5]
  iintro ⟨H8l, H10l, H8r, H10r, H1, H11⟩
  isplitl [H8l H8r]
  · iapply (pointsTo_share (PosShare.mem_left_op_right fullShare)).2
    isplitl [H8l]; · iexact H8l
    iexact H8r
  isplitl [H10l H10r]
  · iapply (pointsTo_share (PosShare.mem_left_op_right fullShare)).2
    isplitl [H10l]; · iexact H10l
    iexact H10r
  isplitl [H1]; · iexact H1
  iexact H11

/-! ## The buffers when the region is left, and at the end -/

/-- The result array after the region's write-backs. -/
abbrev outArr (c : Dev nD) : Buf (Elt F) ((c.tc : Thread nD τ).loc main_v11) := (dats m 0 c).arrAt 5 cfg0.N

/-- The device's buffer contents when the region is left: the result array at what the write-back left, every other
    buffer as the region found it. -/
def Wexit (c : Dev nD) : Valuation τ sig (Elt F) := (StableHlo.nullary main_v11 (outArr m c)).result (V0 m c)

theorem Wexit_out (c : Dev nD) : Wexit m c (Proc.devRef .tc main_v11) = outArr m c :=
  StableHlo.nullary_result main_v11 (outArr m c) _ (V0 m c)

theorem Wexit_of_ne (c : Dev nD) (b : Ref sig .tc) (hb : b ≠ main_v11) : Wexit m c (Proc.devRef .tc b) = V0 m c (Proc.devRef .tc b) :=
  HloOp.result_of_not_mem _ _ (by rw [StableHlo.nullary_writes, Finset.mem_singleton]; exact StableHlo.devRef_ne_of_ne hb)

/-- The device's buffer contents at the end: the three host operations after the region, from the exit contents. -/
def Wend (c : Dev nD) : Valuation τ sig (Elt F) := StableHlo.after hostOps1 (Wexit m c)

/-- The operations after the region write only their own three results. -/
theorem Wend_of_not_written (c : Dev nD) (b : Ref sig .tc) (h12 : b ≠ main_v12) (hc : b ≠ main_cst_0) (h13 : b ≠ main_v13) :
    Wend m c (Proc.devRef .tc b) = Wexit m c (Proc.devRef .tc b) :=
  StableHlo.after_of_forall_not_mem (b := Proc.devRef .tc b) _ _ (List.forall_iff_forall_mem.mp (by
    simp only [hostOps1, List.Forall, StableHlo.nullary_writes, StableHlo.binary_writes, StableHlo.reshape_writes, Finset.mem_singleton]
    exact ⟨StableHlo.devRef_ne_of_ne h12, StableHlo.devRef_ne_of_ne hc, StableHlo.devRef_ne_of_ne h13⟩))

end Cert.KernelIdeal.Fr

end
-- ==== Proof.Ideal.Region.lean ====
/-
  The launch of the region, and what the program's run leaves in memory.

  The launch theorem that fits is the one for windows that may share an array: the buffers behind the arrays are
  dealt among the windows as the proof data's shares say (each normalized view in halves).  After the region the
  halves are joined, the three host operations that follow run holding every unscoped buffer at the exit contents,
  and the buffers are dealt out again for the final read.  The run ends with the result buffer at the end contents'
  value — the accumulator's final value reshaped to a scalar and divided by 2^26 — and the two arguments unchanged.
-/
import proofs.«125349_j36593121362411_1_alg».proof.Proof.Ideal.Exit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrBufs arrRef unscopedRest)

variable (m : (ℓ : Loc nD τ sig) → Buf (Elt F) ℓ) (ρ : Dev nD → PrngReg)

/-! ## Buffers no host operation before the region writes -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))

/-! ## The arrays' contents at the region's exit, as the exit valuation's -/

theorem arrAt_in0 (c : Dev nD) (n : ℕ) : (dats m 0 c).arrAt 0 n = Wexit m c (Proc.devRef .tc main_v8) :=
  ((dats m 0 c).arrAt_in 0 rfl n).trans ((A_eq m c 0).trans (Wexit_of_ne m c main_v8 (by decide)).symm)
theorem arrAt_in1 (c : Dev nD) (n : ℕ) : (dats m 0 c).arrAt 1 n = Wexit m c (Proc.devRef .tc main_v10) :=
  ((dats m 0 c).arrAt_in 1 rfl n).trans ((A_eq m c 1).trans (Wexit_of_ne m c main_v10 (by decide)).symm)
theorem arrAt_in2 (c : Dev nD) (n : ℕ) : (dats m 0 c).arrAt 2 n = Wexit m c (Proc.devRef .tc main_v8) :=
  ((dats m 0 c).arrAt_in 2 rfl n).trans ((A_eq m c 2).trans (Wexit_of_ne m c main_v8 (by decide)).symm)
theorem arrAt_in3 (c : Dev nD) (n : ℕ) : (dats m 0 c).arrAt 3 n = Wexit m c (Proc.devRef .tc main_v10) :=
  ((dats m 0 c).arrAt_in 3 rfl n).trans ((A_eq m c 3).trans (Wexit_of_ne m c main_v10 (by decide)).symm)
theorem arrAt_in4 (c : Dev nD) (n : ℕ) : (dats m 0 c).arrAt 4 n = Wexit m c (Proc.devRef .tc main_arg1) :=
  ((dats m 0 c).arrAt_in 4 rfl n).trans ((A_eq m c 4).trans (Wexit_of_ne m c main_arg1 (by decide)).symm)

/-! ## The lines after the region -/

/-- What bypasses the region: the unscoped buffers that are no window's array, as the region found them. -/
abbrev Zin (c : Dev nD) : sProp 𝕄 := unscopedRest (Ix := Unit) (Name := ℕ) (U := UR sig nD τ) (Lvl := ℕ) spec0 c (V m c)
/-- The same buffers at the end contents. -/
abbrev Zend (c : Dev nD) : sProp 𝕄 := unscopedRest (Ix := Unit) (Name := ℕ) (U := UR sig nD τ) (Lvl := ℕ) spec0 c (fun b => Wend m c (Proc.devRef .tc b))

theorem hostOps1_in : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem hostOps1_nofresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- A window's array is not among the bypassing buffers, so those read the exit valuation as the entry one. -/
theorem Zin_exit (c : Dev nD) : (Zin m c : sProp 𝕄) = unscopedRest (Ix := Unit) (Name := ℕ) (U := UR sig nD τ) (Lvl := ℕ) spec0 c (fun b => Wexit m c (Proc.devRef .tc b)) := by
  unfold Pipeline.unscopedRest
  exact bigSep_congr fun b hb => by
    dsimp only
    rw [Wexit_of_ne m c b fun e => (Finset.mem_sdiff.mp hb).2 (Finset.mem_image.mpr ⟨5, Finset.mem_univ _, e.symm⟩)]

set_option backward.isDefEq.respectTransparency.types false in
/-- From the region's exit — the boundary, the windows' arrays at their final contents, the bypassing buffers as found —
    the three operations run, and hand back the arrays as they were and the bypassing buffers at the end contents. -/
theorem htail (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N) ∗ Zin m c)
      ⊢ wp frame (wpE (defs (F := F)) (Variants.lift Variants.none) (c.tc : Thread nD τ) none) Set.univ (Pipeline.chain (([hostOps1] : List (List (HloOp τ sig (Elt F)))).map StableHlo.seq ++ [])) Q' := by
  have hW : (StableHlo.held (c.tc : Thread nD τ) (Pipeline.ucRefs τ sig) (Wexit m c) : sProp 𝕄)
      = iprop(arrBufs spec0 c (fun b => Wexit m c (Proc.devRef .tc b)) ∗ Zin m c) := by
    rw [← Pipeline.unscopedBufs_held (Ix := Unit) (Name := ℕ) (U := UR sig nD τ) (Lvl := ℕ) c (Wexit m c),
      Pipeline.unscopedBufs_split₀ cfgs (0 : Fin 1) winFacts₀0.arr_unscoped c, Zin_exit]
  have hW' : (StableHlo.held (c.tc : Thread nD τ) (Pipeline.ucRefs τ sig) (Wend m c) : sProp 𝕄)
      = iprop(arrBufs spec0 c (fun b => Wend m c (Proc.devRef .tc b)) ∗ Zend m c) := by
    rw [← Pipeline.unscopedBufs_held (Ix := Unit) (Name := ℕ) (U := UR sig nD τ) (Lvl := ℕ) c (Wend m c),
      Pipeline.unscopedBufs_split₀ cfgs (0 : Fin 1) winFacts₀0.arr_unscoped c]
  have hpre : iprop((dats m 0 c).arrays ((dats m 0 c).arrAt · cfg0.N) ∗ Zin m c)
      ⊢ (StableHlo.held (c.tc : Thread nD τ) (Pipeline.ucRefs τ sig) (Wexit m c) : sProp 𝕄) := by
    rw [hW]
    iintro ⟨Ha, Hz⟩
    isplitl [Ha]
    · iapply (bufs_of_arrays m c (fun b => Wexit m c (Proc.devRef .tc b)) ((dats m 0 c).arrAt · cfg0.N) (arrAt_in0 m c _) (arrAt_in1 m c _) (arrAt_in2 m c _) (arrAt_in3 m c _) (arrAt_in4 m c _) (Wexit_out m c).symm)
      iexact Ha
    iexact Hz
  have hpost : (StableHlo.held (c.tc : Thread nD τ) (Pipeline.ucRefs τ sig) (StableHlo.after [hostOps1].flatten (Wexit m c)) : sProp 𝕄)
      ⊢ iprop((dats m 0 c).arrays ((dats m 0 c).arrAt · cfg0.N) ∗ Zend m c) := by
    rw [show StableHlo.after [hostOps1].flatten (Wexit m c) = Wend m c from by simp only [List.flatten_cons, List.flatten_nil, List.append_nil]; rfl, hW']
    iintro ⟨Ha, Hz⟩
    isplitl [Ha]
    · iapply (arrays_of_bufs m c (fun b => Wend m c (Proc.devRef .tc b)) ((dats m 0 c).arrAt · cfg0.N)
        ((arrAt_in0 m c _).trans (Wend_of_not_written m c main_v8 (by decide) (by decide) (by decide)).symm)
        ((arrAt_in1 m c _).trans (Wend_of_not_written m c main_v10 (by decide) (by decide) (by decide)).symm)
        ((arrAt_in2 m c _).trans (Wend_of_not_written m c main_v8 (by decide) (by decide) (by decide)).symm)
        ((arrAt_in3 m c _).trans (Wend_of_not_written m c main_v10 (by decide) (by decide) (by decide)).symm)
        ((arrAt_in4 m c _).trans (Wend_of_not_written m c main_arg1 (by decide) (by decide) (by decide)).symm)
        ((Wexit_out m c).symm.trans (Wend_of_not_written m c main_v11 (by decide) (by decide) (by decide)).symm))
      iexact Ha
    iexact Hz
  iintro ⟨Hk, Hb, Ha, Hz⟩
  ihave H := hpre $$ [Ha Hz]
  · isplitl [Ha]; · iexact Ha
    iexact Hz
  iapply (Pipeline.wp_seqs_then (fun q => (cfgs q).toPCfg (Val := Elt F)) defs₀ Variants.none c (Pipeline.ucRefs τ sig) [] [hostOps1] hostOps1_in hostOps1_nofresh (Wexit m c)) $$ [Hb H]
  · isplitl [Hb]; · iexact Hb
    iexact H
  iintro Hb
  rw [Pipeline.chain_nil, wp_pure]
  imodintro
  iapply Hk
  icases Hb with ⟨-, H⟩
  iapply hpost
  iexact H

/-! ## The run -/

set_option backward.isDefEq.respectTransparency.types false in
/-- Every weakly fair execution of @main terminates, and the final memory has the result buffer at the end contents'
    value and the two arguments at their launch contents. -/
theorem run_main : θ_run defs (onTc (τ := τ) (main (F := F))) (s₀ m ρ) (fun r => ∀ c : Dev nD,
      r.2.mem ((c.tc : Thread nD τ).loc main_v13) = Wend m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_pf_tail (fun p => (cfgs p).toPCfg (Val := Elt F)) (fun p => (cfgs p).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp))
    (u₀ := initOf (Pipeline.cells (Pipeline.pin (fun p => (cfgs p).toPCfg (Val := Elt F)) fun p => (cfgs p).toPCfg_adm) cellOf_inj) (Pipeline.launchToks (Pipeline.pin (fun p => (cfgs p).toPCfg (Val := Elt F)) fun p => (cfgs p).toPCfg_adm) cellOf_inj))
    (hu₀ := by
      iintro Hu; imodintro
      isplitl [Hu]
      · iapply (show (ownU _ : sProp 𝕄) ⊢ BI.own (emb₁ (initOf (Pipeline.cells (Pipeline.pin (fun p => (cfgs p).toPCfg (Val := Elt F)) fun p => (cfgs p).toPCfg_adm) cellOf_inj) (Pipeline.launchToks (Pipeline.pin (fun p => (cfgs p).toPCfg (Val := Elt F)) fun p => (cfgs p).toPCfg_adm) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c) ((dats m 0 c).arrAt · 0) (A_eq m c 0) (A_eq m c 1) (A_eq m c 2) (A_eq m c 3) (A_eq m c 4) (A_eq m c 5))
    (hpf := fun _ k => k.elim0)
    (X := fun c => iprop(∃ r, prngReg c r)) (Y := fun c => iprop(∃ r, prngReg c r))
    (Z := fun c => Zin m c) (Z' := fun c => Zend m c)
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefs sig spec0, s.mem ((c.tc : Thread nD τ).loc b) = Wend m c (Proc.devRef .tc b))
    (hY := fun c s' => by
      iintro ⟨-, HU, HSI⟩
      unfold Zend unscopedRest
      imodintro
      iapply (pointsTo_read_all (Pipeline.restRefs sig spec0) (fun b => (c.tc : Thread nD τ).loc b) (fun b => Wend m c (Proc.devRef .tc b)) s')
      isplitl [HU] <;> iassumption)
    (hQ := fun s h c => ⟨(h c).2.2 main_v13 (Pipeline.mem_restRefs_of main_v13 rfl (by decide)),
      ((h c).2.2 main_arg0 (Pipeline.mem_restRefs_of main_arg0 rfl (by decide))).trans
        ((Wend_of_not_written m c main_arg0 (by decide) (by decide) (by decide)).trans ((Wexit_of_ne m c main_arg0 (by decide)).trans (V_main_arg0 m c))),
      ((h c).1 4).trans (((dats m 0 c).arrAt_in 4 rfl _).trans ((A_eq m c 4).trans (V_main_arg1 m c)))⟩)

/-- info: 'Cert.KernelIdeal.Fr.run_main' depends on axioms: [propext, Classical.choice, Quot.sound] -/
#guard_msgs in #print axioms run_main

/-- The frame: the program runs, and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Fr

end
-- ==== Proof.Ideal.Pieces.lean ====
/- What each case of the body leaves in the accumulator and in the result buffer, as the body's arithmetic.

   The body's run at a grid point found the stores it ends with. Read back, a middle point's and the last point's one
   store into the accumulator hold the body's arithmetic on the six values loaded (the row tile and the column tile of
   the first view, those of the second view, the target tile, and the accumulator's old value); the last point then
   reads that value back and stores it into the result buffer, which so holds the same value; the first point first
   stores the zero, reads it back, and stores the arithmetic on it. Every load and every store is through the whole
   buffer, so a load reads the buffer's contents and the last store alone decides what is left. For every float
   instance. -/
import proofs.«125349_j36593121362411_1_alg».proof.Proof.Ideal.Data
import Idealize.ShloMosaic.Lib.Pipeline.Value
import Idealize.ShloMosaic.Lib.Tactic

set_option maxRecDepth 16384

noncomputable section

namespace Cert.KernelIdeal.FrValue

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)

variable {F : FTy → Type} [FloatOps F]

/-- The zero offsets of a rank-2 whole-buffer access. -/
theorem hz : (![0, 0] : Fin 2 → Nat) = fun _ => 0 := funext fun a => by fin_cases a <;> rfl

/-- A middle point's one store into the accumulator: the arithmetic of the body on the four operand blocks, the target
    block and the accumulator's old value. -/
theorem soutMid_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1024x128 .bf16) (x4 : Vec F S1024x1024 .f32) (xs : Vec F S1x1 .f32) :
    soutMid c i arg2 harg2 arg3 harg3 arg4 harg4 arg5 harg5 arg6 harg6 arg7 harg7 arg8 harg8 hc0 hc1 x0 x1 x2 x3 x4 xs = k0_pay2 x0 x2 x1 x3 x4 xs := by
  unfold soutMid
  rw [View.read_writes_eq_canon _ _ _ (scoverMid c i arg2 harg2 arg3 harg3 arg4 harg4 arg5 harg5 arg6 harg6 arg7 harg7 arg8 harg8 hc0 hc1 x0 x1 x2 x3 x4 xs)]
  unfold runMid
  dsimp only
  rw [View.canon_unit_zero hz]
  simp only [View.readAt_eq_ld, harg2.read_unread, harg3.read_unread, harg4.read_unread, harg5.read_unread, harg6.read_unread, harg7.read_unread, harg8.read_unread, View.ld_unit_zero (S := S1024x128) hz, View.ld_unit_zero (S := S1024x1024) hz, View.ld_unit_zero (S := S1x1) hz]

/-- The last point's store into the accumulator: the same arithmetic. -/
theorem soutLast_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1024x128 .bf16) (x4 : Vec F S1024x1024 .f32) (xs : Vec F S1x1 .f32) :
    soutLast c i arg2 harg2 arg3 harg3 arg4 harg4 arg5 harg5 arg6 harg6 arg7 harg7 arg8 harg8 hc0 hc1 x0 x1 x2 x3 x4 xs = k0_pay2 x0 x2 x1 x3 x4 xs := by
  unfold soutLast
  rw [View.read_writes_eq_canon _ _ _ (scoverLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x128) hz, View.ld_unit_zero (S := S1024x1024) hz, View.ld_unit_zero (S := S1x1) hz]

/-- The last point's store into the result buffer: the accumulator's new value read back, so the same value again. -/
theorem outLast_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1024x128 .bf16) (x4 : Vec F S1024x1024 .f32) (xs : Vec F S1x1 .f32) :
    outLast c i arg2 harg2 arg3 harg3 arg4 harg4 arg5 harg5 arg6 harg6 arg7 harg7 arg8 harg8 hc0 hc1 x0 x1 x2 x3 x4 xs = k0_pay2 x0 x2 x1 x3 x4 xs := by
  unfold outLast
  rw [View.read_writes_eq_canon _ _ _ (coverLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz, View.readCov_unit_zero (S := S1x1) _ hz]
  simp only [View.readAt_eq_ld, harg2.read_unread, harg3.read_unread, harg4.read_unread, harg5.read_unread, harg6.read_unread, harg7.read_unread, harg8.read_unread, View.ld_unit_zero (S := S1024x128) hz, View.ld_unit_zero (S := S1024x1024) hz, View.ld_unit_zero (S := S1x1) hz]

/-- The first point clears the accumulator, reads the cleared value back, and stores the arithmetic of the body on it. -/
theorem soutFirst_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1024x128 .bf16) (x4 : Vec F S1024x1024 .f32) :
    soutFirst c i arg2 harg2 arg3 harg3 arg4 harg4 arg5 harg5 arg6 harg6 arg7 harg7 arg8 harg8 hc0 hc1 x0 x1 x2 x3 x4 = k0_pay2 x0 x2 x1 x3 x4 (k0_pay1 (F := F)) := by
  unfold soutFirst
  rw [View.read_writes_eq_canon _ _ _ (scoverFirst c i arg2 harg2 arg3 harg3 arg4 harg4 arg5 harg5 arg6 harg6 arg7 harg7 arg8 harg8 hc0 hc1 x0 x1 x2 x3 x4)]
  unfold runFirst
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread, harg8.read_unread, View.ld_unit_zero (S := S1024x128) hz, View.ld_unit_zero (S := S1024x1024) hz, View.ld_unit_zero (S := S1x1) hz]

end Cert.KernelIdeal.FrValue

end
-- ==== Proof.SimSpec.lean ====
/- The similarity-distillation loss, as a specification over the extended reals.

   For an array X of shape [2, 8192, 128] and an array Y of shape [8192, 8192]:
     gram X v n m = sum over k < 128 of X[v,n,k] * X[v,m,k]
     err X Y v n m = (gram X v n m - Y[n,m]) * (gram X v n m - Y[n,m])
   The REFERENCE form of the loss is
     refSum X Y c = 0 + sum over v < 2 of (0 + sum over n, m < 8192 of err X Y v n m) / c.
   The TILED form walks the 8 x 8 grid of 1024 x 1024 tiles in row-major order, t = 0 .. 63, tile (t / 8, t % 8);
   tile (i, j) contributes the sum of err over its rows 1024 i + p and columns 1024 j + q for both v, and
   acc X Y t is the running total after tile t (from a zero start).
   The theorem acc_div_eq_refSum: for the divisor c = 2^26 (the f32 word 0x4C800000), acc X Y 63 / c = refSum X Y c.
   The steps: each err is a square, so nonnegative on the extended reals; sums of nonnegatives are nonnegative;
   the 64 tiles' (i, p) and (j, q) enumerate every (n, m) exactly once (n = 1024 i + p is a bijection
   Fin 8 x Fin 1024 -> Fin 8192); extended-real addition is commutative and associative, so the running total is
   the sum over all (v, n, m); and division by a nonzero c distributes over a sum of two nonnegative terms. -/
import Idealize.ShloMosaic.Lib.ValueIdx
import Idealize.ShloMosaic.PureOps.Ideal.Laws
import Mathlib.Data.EReal.Operations
import Mathlib.Algebra.BigOperators.Fin
import Mathlib.Algebra.Order.BigOperators.Group.Finset

noncomputable section

namespace Cert.Sim

open Idealize.ShloMosaic Idealize.ShloMosaic.ValueIdx
open scoped BigOperators

/-! ## The specification -/

/-- The Gram entry of batch v at (n, m): the inner product of rows n and m of X[v]. -/
def gram (X : (⟨3, ![2, 8192, 128]⟩ : Shape).Idx → EReal) (v : Fin 2) (n m : Fin 8192) : EReal :=
  ∑ k : Fin 128, X (ix3 v n k) * X (ix3 v m k)

/-- The squared difference between the Gram entry and the target Y[n, m], written as d * d. -/
def err (X : (⟨3, ![2, 8192, 128]⟩ : Shape).Idx → EReal) (Y : (⟨2, ![8192, 8192]⟩ : Shape).Idx → EReal)
    (v : Fin 2) (n m : Fin 8192) : EReal :=
  (gram X v n m - Y (ix2 n m)) * (gram X v n m - Y (ix2 n m))

/-- Row (or column) p of tile-row (tile-column) i: 1024 i + p. -/
def row (i : Fin 8) (p : Fin 1024) : Fin 8192 := ⟨1024 * i.val + p.val, by omega⟩

/-- What tile (i, j) adds: the sum of err over its 1024 x 1024 entries, for v = 0 plus for v = 1. -/
def tile (X : (⟨3, ![2, 8192, 128]⟩ : Shape).Idx → EReal) (Y : (⟨2, ![8192, 8192]⟩ : Shape).Idx → EReal)
    (i j : Fin 8) : EReal :=
  (∑ p : Fin 1024, ∑ q : Fin 1024, err X Y 0 (row i p) (row j q))
    + (∑ p : Fin 1024, ∑ q : Fin 1024, err X Y 1 (row i p) (row j q))

/-- The running total after tile t of the row-major walk, from a zero start. -/
def acc (X : (⟨3, ![2, 8192, 128]⟩ : Shape).Idx → EReal) (Y : (⟨2, ![8192, 8192]⟩ : Shape).Idx → EReal) : ℕ → EReal
  | 0 => 0 + tile X Y 0 0
  | n + 1 => acc X Y n
      + tile X Y ⟨(n + 1) / 8 % 8, Nat.mod_lt _ (by norm_num)⟩ ⟨(n + 1) % 8, Nat.mod_lt _ (by norm_num)⟩

/-- The reference's form: per batch, the whole sum from a zero start, divided by c; then summed from a zero start. -/
def refSum (X : (⟨3, ![2, 8192, 128]⟩ : Shape).Idx → EReal) (Y : (⟨2, ![8192, 8192]⟩ : Shape).Idx → EReal)
    (c : EReal) : EReal :=
  0 + ∑ v : Fin 2, Ideal.div (0 + ∑ n : Fin 8192, ∑ m : Fin 8192, err X Y v n m) c

/-! ## The divisor -/

/-- The f32 word 0x4C800000 denotes 2^26 = 67108864. -/
theorem ofBits_two_pow_26 : Ideal.ofBits .f32 0x4C800000#32 = ((67108864 : ℝ) : EReal) := by
  simp [Ideal.ofBits, Ideal.ieee, -EReal.coe_mul]; norm_num

/-- It is not zero. -/
theorem ofBits_two_pow_26_ne_zero : Ideal.ofBits .f32 0x4C800000#32 ≠ 0 := by
  rw [ofBits_two_pow_26]
  exact_mod_cast (by norm_num : (67108864 : ℝ) ≠ 0)

/-! ## Nonnegativity -/

/-- A square is nonnegative on the extended reals (at both infinities it is the top). -/
theorem mul_self_nonneg_ereal (d : EReal) : 0 ≤ d * d :=
  EReal.mul_nonneg_iff.mpr ((le_total 0 d).elim (fun h => .inl ⟨h, h⟩) (fun h => .inr ⟨h, h⟩))

theorem err_nonneg (X : (⟨3, ![2, 8192, 128]⟩ : Shape).Idx → EReal) (Y : (⟨2, ![8192, 8192]⟩ : Shape).Idx → EReal)
    (v : Fin 2) (n m : Fin 8192) : 0 ≤ err X Y v n m :=
  mul_self_nonneg_ereal _

/-- Division by a nonzero divisor distributes over a sum of two nonnegative terms. -/
theorem div_add_of_nonneg {a b c : EReal} (hc : c ≠ 0) (ha : 0 ≤ a) (hb : 0 ≤ b) :
    Ideal.div (a + b) c = Ideal.div a c + Ideal.div b c := by
  unfold Ideal.div
  rw [if_neg hc, if_neg hc, if_neg hc]
  exact EReal.right_distrib_of_nonneg ha hb

/-! ## Re-indexing: tiles enumerate the whole array -/

/-- (i, p) ↦ 1024 i + p is a bijection from the 8 tile-rows times the 1024 rows of a tile onto the 8192 rows. -/
def rowEquiv : Fin 8 × Fin 1024 ≃ Fin 8192 where
  toFun x := row x.1 x.2
  invFun n := (⟨n.val / 1024, by omega⟩, ⟨n.val % 1024, by omega⟩)
  left_inv x := by
    obtain ⟨i, p⟩ := x
    refine Prod.ext (Fin.ext ?_) (Fin.ext ?_)
    · show (1024 * i.val + p.val) / 1024 = i.val
      omega
    · show (1024 * i.val + p.val) % 1024 = p.val
      omega
  right_inv n := Fin.ext (by
    show 1024 * (n.val / 1024) + n.val % 1024 = n.val
    omega)

/-- A sum over tile-rows and rows within a tile is the sum over all rows. -/
theorem sum_row {M : Type*} [AddCommMonoid M] (g : Fin 8192 → M) :
    ∑ i : Fin 8, ∑ p : Fin 1024, g (row i p) = ∑ n : Fin 8192, g n := by
  rw [← Equiv.sum_comp rowEquiv g, Fintype.sum_prod_type]
  rfl

/-- The four-fold sum over tiles and positions within a tile is the double sum over the array. -/
theorem sum_tiles {M : Type*} [AddCommMonoid M] (f : Fin 8192 → Fin 8192 → M) :
    ∑ i : Fin 8, ∑ j : Fin 8, ∑ p : Fin 1024, ∑ q : Fin 1024, f (row i p) (row j q)
      = ∑ n : Fin 8192, ∑ m : Fin 8192, f n m := by
  calc ∑ i : Fin 8, ∑ j : Fin 8, ∑ p : Fin 1024, ∑ q : Fin 1024, f (row i p) (row j q)
      = ∑ i : Fin 8, ∑ p : Fin 1024, ∑ j : Fin 8, ∑ q : Fin 1024, f (row i p) (row j q) :=
        Finset.sum_congr rfl fun i _ => Finset.sum_comm
    _ = ∑ i : Fin 8, ∑ p : Fin 1024, ∑ m : Fin 8192, f (row i p) m :=
        Finset.sum_congr rfl fun i _ => Finset.sum_congr rfl fun p _ => sum_row fun m => f (row i p) m
    _ = ∑ n : Fin 8192, ∑ m : Fin 8192, f n m := sum_row fun n => ∑ m : Fin 8192, f n m

/-- t ↦ (t / 8, t % 8) read backwards: (i, j) ↦ 8 i + j is a bijection from the 8 x 8 grid onto the 64 steps. -/
def gridEquiv : Fin 8 × Fin 8 ≃ Fin 64 where
  toFun x := ⟨8 * x.1.val + x.2.val, by omega⟩
  invFun t := (⟨t.val / 8, by omega⟩, ⟨t.val % 8, by omega⟩)
  left_inv x := by
    obtain ⟨i, j⟩ := x
    refine Prod.ext (Fin.ext ?_) (Fin.ext ?_)
    · show (8 * i.val + j.val) / 8 = i.val
      omega
    · show (8 * i.val + j.val) % 8 = j.val
      omega
  right_inv t := Fin.ext (by
    show 8 * (t.val / 8) + t.val % 8 = t.val
    omega)

/-! ## The running total is the sum over all tiles -/

/-- The tile visited at step t of the row-major walk. -/
def tileAt (X : (⟨3, ![2, 8192, 128]⟩ : Shape).Idx → EReal) (Y : (⟨2, ![8192, 8192]⟩ : Shape).Idx → EReal)
    (t : ℕ) : EReal :=
  tile X Y ⟨t / 8 % 8, Nat.mod_lt _ (by norm_num)⟩ ⟨t % 8, Nat.mod_lt _ (by norm_num)⟩

theorem acc_eq_sum (X : (⟨3, ![2, 8192, 128]⟩ : Shape).Idx → EReal) (Y : (⟨2, ![8192, 8192]⟩ : Shape).Idx → EReal)
    (n : ℕ) : acc X Y n = ∑ t ∈ Finset.range (n + 1), tileAt X Y t := by
  induction n with
  | zero =>
    rw [Finset.sum_range_one]
    show 0 + tile X Y 0 0 = tileAt X Y 0
    rw [zero_add]
    rfl
  | succ n ih =>
    rw [Finset.sum_range_succ, ← ih]
    rfl

theorem sum_tileAt (X : (⟨3, ![2, 8192, 128]⟩ : Shape).Idx → EReal) (Y : (⟨2, ![8192, 8192]⟩ : Shape).Idx → EReal) :
    ∑ t ∈ Finset.range 64, tileAt X Y t = ∑ i : Fin 8, ∑ j : Fin 8, tile X Y i j := by
  rw [Finset.sum_range, ← Equiv.sum_comp gridEquiv (fun t : Fin 64 => tileAt X Y t.val), Fintype.sum_prod_type]
  refine Finset.sum_congr rfl fun i _ => Finset.sum_congr rfl fun j _ => ?_
  show tile X Y ⟨(8 * i.val + j.val) / 8 % 8, _⟩ ⟨(8 * i.val + j.val) % 8, _⟩ = tile X Y i j
  congr 1
  · exact Fin.ext (by show (8 * i.val + j.val) / 8 % 8 = i.val; omega)
  · exact Fin.ext (by show (8 * i.val + j.val) % 8 = j.val; omega)

/-- The whole sum of batch v. -/
def total (X : (⟨3, ![2, 8192, 128]⟩ : Shape).Idx → EReal) (Y : (⟨2, ![8192, 8192]⟩ : Shape).Idx → EReal)
    (v : Fin 2) : EReal :=
  ∑ n : Fin 8192, ∑ m : Fin 8192, err X Y v n m

theorem total_nonneg (X : (⟨3, ![2, 8192, 128]⟩ : Shape).Idx → EReal) (Y : (⟨2, ![8192, 8192]⟩ : Shape).Idx → EReal)
    (v : Fin 2) : 0 ≤ total X Y v :=
  Finset.sum_nonneg fun n _ => Finset.sum_nonneg fun m _ => err_nonneg X Y v n m

/-- The running total after the last tile is the whole sum of batch 0 plus that of batch 1. -/
theorem acc_63 (X : (⟨3, ![2, 8192, 128]⟩ : Shape).Idx → EReal) (Y : (⟨2, ![8192, 8192]⟩ : Shape).Idx → EReal) :
    acc X Y 63 = total X Y 0 + total X Y 1 := by
  rw [acc_eq_sum, sum_tileAt]
  unfold tile
  simp only [Finset.sum_add_distrib]
  rw [sum_tiles fun n m => err X Y 0 n m, sum_tiles fun n m => err X Y 1 n m]
  rfl

/-! ## The theorem -/

/-- The tiled running total divided by 2^26 is the reference's sum of the two batches' quotients. -/
theorem acc_div_eq_refSum (X : (⟨3, ![2, 8192, 128]⟩ : Shape).Idx → EReal)
    (Y : (⟨2, ![8192, 8192]⟩ : Shape).Idx → EReal) :
    Ideal.div (acc X Y 63) (Ideal.ofBits .f32 0x4C800000#32) = refSum X Y (Ideal.ofBits .f32 0x4C800000#32) := by
  rw [acc_63, div_add_of_nonneg ofBits_two_pow_26_ne_zero (total_nonneg X Y 0) (total_nonneg X Y 1)]
  unfold refSum
  rw [Fin.sum_univ_two, zero_add, zero_add, zero_add]
  rfl

end Cert.Sim

end
-- ==== Proof.Ideal.Blocks.lean ====
/- Which entries of the region's arrays a window's block holds at a grid point.

   Point t of the 8 x 8 grid is tile (t / 8, t % 8). A block's element sits in its array, on each axis, at the block's
   index times the block's size plus the element's coordinate in the block. The index maps, decided once over the 64
   points: windows 0 and 1 are at block row t / 8 of the two views' arrays, windows 2 and 3 at block row t % 8 of the
   same two arrays, window 4 at block (t / 8, t % 8) of the target matrix. So entry (p, k) of window 0's block is
   entry (1024 (t / 8) + p, k) of the first view's array, and so on; entry (p, q) of window 4's block is entry
   (1024 (t / 8) + p, 1024 (t % 8) + q) of the target matrix. For every float instance. -/
import proofs.«125349_j36593121362411_1_alg».proof.Proof.Ideal.Data
import proofs.«125349_j36593121362411_1_alg».proof.Proof.SimSpec
import Idealize.ShloMosaic.Lib.Pipeline.Value
import Idealize.ShloMosaic.Lib.Tactic

set_option maxRecDepth 16384

noncomputable section

namespace Cert.KernelIdeal.FrValue

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]
variable (m : (ℓ : Loc nD τ sig) → Buf (Elt F) ℓ)

/-- Window 0 reads row tile t / 8 of the first view. -/
theorem idx0_0 : ∀ t : Fin cfg0.N, win0_0.index t 0 = t.val / 8 % 8 ∧ win0_0.index t 1 = 0 :=
  (by decide +kernel : ∀ t : Fin grid0.N, win0_0.index t 0 = t.val / 8 % 8 ∧ win0_0.index t 1 = 0)

theorem iblk0_apply (c : Dev nD) (t : Fin cfg0.N) (p : Fin 1024) (k : Fin 128) :
    (iblk m c 0 t : Vec F S1024x128 .bf16) (ix2 p k)
      = (V m c main_v8 : Vec F S8192x128 .bf16) (ix2 (Cert.Sim.row ⟨t.val / 8 % 8, Nat.mod_lt _ (by norm_num)⟩ p) k) := by
  unfold iblk
  rw [View.read_apply]
  show V m c main_v8 _ = V m c main_v8 _
  congr 1
  funext a
  apply Fin.ext
  match a with
  | ⟨0, _⟩ =>
    show win0_0.index t 0 * 1024 + 1 * p.val = 1024 * (t.val / 8 % 8) + p.val
    rw [(idx0_0 t).1]; omega
  | ⟨1, _⟩ =>
    show win0_0.index t 1 * 128 + 1 * k.val = k.val
    rw [(idx0_0 t).2]; omega

/-- Window 1 reads row tile t / 8 of the second view. -/
theorem idx0_1 : ∀ t : Fin cfg0.N, win0_1.index t 0 = t.val / 8 % 8 ∧ win0_1.index t 1 = 0 :=
  (by decide +kernel : ∀ t : Fin grid0.N, win0_1.index t 0 = t.val / 8 % 8 ∧ win0_1.index t 1 = 0)

theorem iblk1_apply (c : Dev nD) (t : Fin cfg0.N) (p : Fin 1024) (k : Fin 128) :
    (iblk m c 1 t : Vec F S1024x128 .bf16) (ix2 p k)
      = (V m c main_v10 : Vec F S8192x128 .bf16) (ix2 (Cert.Sim.row ⟨t.val / 8 % 8, Nat.mod_lt _ (by norm_num)⟩ p) k) := by
  unfold iblk
  rw [View.read_apply]
  show V m c main_v10 _ = V m c main_v10 _
  congr 1
  funext a
  apply Fin.ext
  match a with
  | ⟨0, _⟩ =>
    show win0_1.index t 0 * 1024 + 1 * p.val = 1024 * (t.val / 8 % 8) + p.val
    rw [(idx0_1 t).1]; omega
  | ⟨1, _⟩ =>
    show win0_1.index t 1 * 128 + 1 * k.val = k.val
    rw [(idx0_1 t).2]; omega

/-- Window 2 reads row tile t % 8 of the first view (the tile's columns). -/
theorem idx0_2 : ∀ t : Fin cfg0.N, win0_2.index t 0 = t.val % 8 ∧ win0_2.index t 1 = 0 :=
  (by decide +kernel : ∀ t : Fin grid0.N, win0_2.index t 0 = t.val % 8 ∧ win0_2.index t 1 = 0)

theorem iblk2_apply (c : Dev nD) (t : Fin cfg0.N) (p : Fin 1024) (k : Fin 128) :
    (iblk m c 2 t : Vec F S1024x128 .bf16) (ix2 p k)
      = (V m c main_v8 : Vec F S8192x128 .bf16) (ix2 (Cert.Sim.row ⟨t.val % 8, Nat.mod_lt _ (by norm_num)⟩ p) k) := by
  unfold iblk
  rw [View.read_apply]
  show V m c main_v8 _ = V m c main_v8 _
  congr 1
  funext a
  apply Fin.ext
  match a with
  | ⟨0, _⟩ =>
    show win0_2.index t 0 * 1024 + 1 * p.val = 1024 * (t.val % 8) + p.val
    rw [(idx0_2 t).1]; omega
  | ⟨1, _⟩ =>
    show win0_2.index t 1 * 128 + 1 * k.val = k.val
    rw [(idx0_2 t).2]; omega

/-- Window 3 reads row tile t % 8 of the second view (the tile's columns). -/
theorem idx0_3 : ∀ t : Fin cfg0.N, win0_3.index t 0 = t.val % 8 ∧ win0_3.index t 1 = 0 :=
  (by decide +kernel : ∀ t : Fin grid0.N, win0_3.index t 0 = t.val % 8 ∧ win0_3.index t 1 = 0)

theorem iblk3_apply (c : Dev nD) (t : Fin cfg0.N) (p : Fin 1024) (k : Fin 128) :
    (iblk m c 3 t : Vec F S1024x128 .bf16) (ix2 p k)
      = (V m c main_v10 : Vec F S8192x128 .bf16) (ix2 (Cert.Sim.row ⟨t.val % 8, Nat.mod_lt _ (by norm_num)⟩ p) k) := by
  unfold iblk
  rw [View.read_apply]
  show V m c main_v10 _ = V m c main_v10 _
  congr 1
  funext a
  apply Fin.ext
  match a with
  | ⟨0, _⟩ =>
    show win0_3.index t 0 * 1024 + 1 * p.val = 1024 * (t.val % 8) + p.val
    rw [(idx0_3 t).1]; omega
  | ⟨1, _⟩ =>
    show win0_3.index t 1 * 128 + 1 * k.val = k.val
    rw [(idx0_3 t).2]; omega

/-- Window 4 reads tile (t / 8, t % 8) of the target matrix. -/
theorem idx0_4 : ∀ t : Fin cfg0.N, win0_4.index t 0 = t.val / 8 % 8 ∧ win0_4.index t 1 = t.val % 8 :=
  (by decide +kernel : ∀ t : Fin grid0.N, win0_4.index t 0 = t.val / 8 % 8 ∧ win0_4.index t 1 = t.val % 8)

theorem iblk4_apply (c : Dev nD) (t : Fin cfg0.N) (p q : Fin 1024) :
    (iblk m c 4 t : Vec F S1024x1024 .f32) (ix2 p q)
      = (V m c main_arg1 : Vec F S8192x8192 .f32) (ix2 (Cert.Sim.row ⟨t.val / 8 % 8, Nat.mod_lt _ (by norm_num)⟩ p) (Cert.Sim.row ⟨t.val % 8, Nat.mod_lt _ (by norm_num)⟩ q)) := by
  unfold iblk
  rw [View.read_apply]
  show V m c main_arg1 _ = V m c main_arg1 _
  congr 1
  funext a
  apply Fin.ext
  match a with
  | ⟨0, _⟩ =>
    show win0_4.index t 0 * 1024 + 1 * p.val = 1024 * (t.val / 8 % 8) + p.val
    rw [(idx0_4 t).1]; omega
  | ⟨1, _⟩ =>
    show win0_4.index t 1 * 1024 + 1 * q.val = 1024 * (t.val % 8) + q.val
    rw [(idx0_4 t).2]; omega

end Cert.KernelIdeal.FrValue

end
-- ==== Proof.Ideal.Prefix.lean ====
/- What the host operations before the region leave in the buffers the region reads.

   The arguments are not written. The two views' arrays are, for batch v = 0 and v = 1, the normalized input narrowed
   to bf16, its batch v sliced out as a [1, 8192, 128] array, and the unit axis dropped; the normalized input is the
   very term the reference program computes, the same operations applied to the same argument, so it is named by the
   reference's stage and never opened again. Over the extended reals narrowing is the identity, a slice reads at the
   offset index and dropping a leading unit axis keeps the other coordinates: entry (n, k) of view v's array is entry
   (v, n, k) of the normalized input. -/
import proofs.«125349_j36593121362411_1_alg».proof.Proof.Ideal.Data
import proofs.«125349_j36593121362411_1_alg».proof.Proof.Gen.ReferenceIdeal.Read
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.KernelIdeal.FrValue

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)
open Idealize.ShloMosaic.ValueIdx Idealize.ShloMosaic.StableHlo

variable {F : FTy → Type} [FloatOps F]
variable (m : (ℓ : Loc nD τ sig) → Buf (Elt F) ℓ)

/-- The host operations before the region do not write the first argument … -/
theorem V_main_arg0 (c : Dev nD) : V m c main_arg0 = m ((c.tc : Thread nD τ).loc main_arg0) := by
  dsimp only [V, V0]
  simp only [hostOps0, hostOps0_1, hostOps0_2, List.flatten_cons, List.flatten_nil, List.append_nil, List.cons_append, List.nil_append]
  after_results

/-- … nor the second. -/
theorem V_main_arg1 (c : Dev nD) : V m c main_arg1 = m ((c.tc : Thread nD τ).loc main_arg1) := by
  dsimp only [V, V0]
  simp only [hostOps0, hostOps0_1, hostOps0_2, List.flatten_cons, List.flatten_nil, List.append_nil, List.cons_append, List.nil_append]
  after_results

/-- The first view's array: the normalized input narrowed to bf16, its batch 0 sliced out and the unit axis dropped. The
    normalized input is the very term the reference computes (the same operations on the same argument). -/
theorem V_main_v8 (c : Dev nD) :
    (V m c main_v8 : Vec F S8192x128 .bf16)
      = shapeCast S8192x128
          (extractStridedSlice S1x8192x128 ![0, 0, 0]
            (truncf .bf16 (Cert.ReferenceIdeal.Read.val_main_v5 (F := F) (m ((c.tc : Thread nD τ).loc main_arg0))) bitsLt_bf16_f32)
            slices_S2x8192x128_S1x8192x128_0_0_0)
          shapeCasts_S1x8192x128_S8192x128 := by
  dsimp only [V, V0]
  simp only [hostOps0, hostOps0_1, hostOps0_2, List.flatten_cons, List.flatten_nil, List.append_nil, List.cons_append, List.nil_append]
  after_results
  rfl

/-- The second view's array: the same with batch 1. -/
theorem V_main_v10 (c : Dev nD) :
    (V m c main_v10 : Vec F S8192x128 .bf16)
      = shapeCast S8192x128
          (extractStridedSlice S1x8192x128 ![1, 0, 0]
            (truncf .bf16 (Cert.ReferenceIdeal.Read.val_main_v5 (F := F) (m ((c.tc : Thread nD τ).loc main_arg0))) bitsLt_bf16_f32)
            slices_S2x8192x128_S1x8192x128_1_0_0)
          shapeCasts_S1x8192x128_S8192x128 := by
  dsimp only [V, V0]
  simp only [hostOps0, hostOps0_1, hostOps0_2, List.flatten_cons, List.flatten_nil, List.append_nil, List.cons_append, List.nil_append]
  after_results
  rfl

/-! ## Read at an index, over the extended reals (where narrowing to bf16 is the identity) -/

/-- Entry (n, k) of the first view's array is entry (0, n, k) of the normalized input. -/
theorem V_main_v8_apply (m : (ℓ : Loc nD τ sig) → Buf (Elt Ideal) ℓ) (c : Dev nD) (n : Fin 8192) (k : Fin 128) :
    (V m c main_v8 : Vec Ideal S8192x128 .bf16) (ix2 n k)
      = Cert.ReferenceIdeal.Read.val_main_v5 (F := Ideal) (m ((c.tc : Thread nD τ).loc main_arg0)) (ix3 0 n k) := by
  rw [V_main_v8]
  generalize Cert.ReferenceIdeal.Read.val_main_v5 (F := Ideal) (m ((c.tc : Thread nD τ).loc main_arg0)) = X
  refine (shapeCast_1ab_ab_apply _ _ n k).trans ?_
  exact (extractStridedSlice_apply _ _ _ _ (ix3 0 n k) (fun a => by
    match a with
    | ⟨0, _⟩ => rfl
    | ⟨1, _⟩ => exact (Nat.zero_add _).symm
    | ⟨2, _⟩ => exact (Nat.zero_add _).symm)).trans rfl

/-- Entry (n, k) of the second view's array is entry (1, n, k) of the normalized input. -/
theorem V_main_v10_apply (m : (ℓ : Loc nD τ sig) → Buf (Elt Ideal) ℓ) (c : Dev nD) (n : Fin 8192) (k : Fin 128) :
    (V m c main_v10 : Vec Ideal S8192x128 .bf16) (ix2 n k)
      = Cert.ReferenceIdeal.Read.val_main_v5 (F := Ideal) (m ((c.tc : Thread nD τ).loc main_arg0)) (ix3 1 n k) := by
  rw [V_main_v10]
  generalize Cert.ReferenceIdeal.Read.val_main_v5 (F := Ideal) (m ((c.tc : Thread nD τ).loc main_arg0)) = X
  refine (shapeCast_1ab_ab_apply _ _ n k).trans ?_
  exact (extractStridedSlice_apply _ _ _ _ (ix3 1 n k) (fun a => by
    match a with
    | ⟨0, _⟩ => rfl
    | ⟨1, _⟩ => exact (Nat.zero_add _).symm
    | ⟨2, _⟩ => exact (Nat.zero_add _).symm)).trans rfl

end Cert.KernelIdeal.FrValue

end
-- ==== Proof.SimPay.lean ====
/- The kernel body's arithmetic, read at its one output element.

   The body keeps a 1 x 1 accumulator. Its first payload writes the zero word, which denotes 0. Its second payload,
   given four 1024 x 128 operand blocks a, b, a', b', a 1024 x 1024 target block y and the accumulator's old
   value s, returns
     s + ( sum over p, q < 1024 of (sum over k < 128 of a[p,k] * b[q,k] - y[p,q])^2
         + sum over p, q < 1024 of (sum over k < 128 of a'[p,k] * b'[q,k] - y[p,q])^2 ),
   each square written as d * d. The ingredients: a matrix product into a zero accumulator, read at (p, q), is the
   sum over the one contracted axis of the products of the operands at (p, k) and (q, k); a sum-reduction of a
   [1, 1024, 1024] array over its last two axes into [1] is the sum over every element; a reshape keeps the elements
   in row-major order, so a sum over a reshaped array is the sum over the array; the remaining operations
   (subtract, multiply, add, broadcast of a scalar, extraction of the one element) act element by element. -/
import proofs.«125349_j36593121362411_1_alg».proof.Proof.Gen.KernelIdeal.Skeleton
import proofs.«125349_j36593121362411_1_alg».proof.Proof.SimSpec
import Idealize.ShloMosaic.Lib.Pipeline.Value
import Idealize.ShloMosaic.Lib.ValueLayout

noncomputable section

namespace Cert.Sim

open Idealize.ShloMosaic Idealize.ShloMosaic.ValueIdx Cert.KernelIdeal
open scoped BigOperators

/-! ## The matrix product of two blocks, at (p, q) -/

theorem lhs_tile_0 (i : S1024x1024.Idx) (c : dot_S1024x128_S1024x128_S1024x1024_1_1_0_0_n_n.contr.Idx) :
    (dot_S1024x128_S1024x128_S1024x1024_1_1_0_0_n_n.lhsIdx i c 0).val = (i 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl

theorem lhs_tile_1 (i : S1024x1024.Idx) (c : dot_S1024x128_S1024x128_S1024x1024_1_1_0_0_n_n.contr.Idx) :
    (dot_S1024x128_S1024x128_S1024x1024_1_1_0_0_n_n.lhsIdx i c 1).val = (c ⟨0, by decide⟩).val :=
  dot_S1024x128_S1024x128_S1024x1024_1_1_0_0_n_n.lhsIdx_val_of_single rfl i c

theorem rhs_tile_0 (i : S1024x1024.Idx) (c : dot_S1024x128_S1024x128_S1024x1024_1_1_0_0_n_n.contr.Idx) :
    (dot_S1024x128_S1024x128_S1024x1024_1_1_0_0_n_n.rhsIdx i c 0).val = (i 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl

theorem rhs_tile_1 (i : S1024x1024.Idx) (c : dot_S1024x128_S1024x128_S1024x1024_1_1_0_0_n_n.contr.Idx) :
    (dot_S1024x128_S1024x128_S1024x1024_1_1_0_0_n_n.rhsIdx i c 1).val = (c ⟨0, by decide⟩).val :=
  dot_S1024x128_S1024x128_S1024x1024_1_1_0_0_n_n.rhsIdx_val_of_single rfl i c

/-- The product of two 1024 x 128 blocks into the zero accumulator, at (p, q): the inner product of row p of the
    first with row q of the second. -/
theorem matmul_tile (a b : FVec Ideal S1024x128 .bf16) (p q : Fin 1024) :
    matmul (F := Ideal) dot_S1024x128_S1024x128_S1024x1024_1_1_0_0_n_n none a b
        (constant (F := Ideal) S1024x1024 .f32 0x00000000#32) (ix2 p q)
      = ∑ k : Fin 128, a (ix2 p k) * b (ix2 q k) := by
  refine (Ideal.matmul_constant_zero_apply dot_S1024x128_S1024x128_S1024x1024_1_1_0_0_n_n none a b (ix2 p q)).trans ?_
  rw [← Equiv.sum_comp (ValueIdx.contrEquiv1 dot_S1024x128_S1024x128_S1024x1024_1_1_0_0_n_n 128 rfl rfl).symm]
  refine Finset.sum_congr rfl fun k _ => ?_
  have hk := ValueIdx.contrEquiv1_symm_val dot_S1024x128_S1024x128_S1024x1024_1_1_0_0_n_n 128 rfl rfl k
  have el : dot_S1024x128_S1024x128_S1024x1024_1_1_0_0_n_n.lhsIdx (ix2 p q)
      ((ValueIdx.contrEquiv1 dot_S1024x128_S1024x128_S1024x1024_1_1_0_0_n_n 128 rfl rfl).symm k) = ix2 p k :=
    funext fun d => Fin.ext (by
      match d with
      | ⟨0, _⟩ => exact lhs_tile_0 _ _
      | ⟨1, _⟩ => exact (lhs_tile_1 _ _).trans hk)
  have er : dot_S1024x128_S1024x128_S1024x1024_1_1_0_0_n_n.rhsIdx (ix2 p q)
      ((ValueIdx.contrEquiv1 dot_S1024x128_S1024x128_S1024x1024_1_1_0_0_n_n 128 rfl rfl).symm k) = ix2 q k :=
    funext fun d => Fin.ext (by
      match d with
      | ⟨0, _⟩ => exact rhs_tile_0 _ _
      | ⟨1, _⟩ => exact (rhs_tile_1 _ _).trans hk)
  rw [el, er]

/-! ## The sum of a 1024 x 1024 block, as the body takes it -/

/-- A 1024 x 1024 block reshaped to [1, 1024, 1024], sum-reduced over its last two axes into [1], reshaped to
    [1, 1, 1] and read at its one element: the sum over (p, q) of the block. -/
theorem sum_tile (w : FVec Ideal S1024x1024 .f32) (h1 : S1024x1024.ShapeCasts S1x1024x1024)
    (h2 : S1x1024x1024.Reduces [1, 2] S1) (hφ : FKind.Formats .f32)
    (hacc : 0x00000000#32 = FKind.add.neutral .f32 hφ)
    (h3 : S1.ShapeCasts S1x1x1) (h4 : ∀ a, (![0, 0, 0] : Fin 3 → Nat) a < S1x1x1.size a) :
    extractAt ![0, 0, 0]
        (shapeCast S1x1x1
          (multiReduction (F := Ideal) .add [1, 2] S1 (shapeCast S1x1024x1024 w h1) 0x00000000#32 h2 hφ hacc) h3) h4
      = ∑ p : Fin 1024, ∑ q : Fin 1024, w (ix2 p q) := by
  show multiReduction (F := Ideal) .add [1, 2] S1 (shapeCast S1x1024x1024 w h1) 0x00000000#32 h2 hφ hacc
      (Shape.reshapeEquiv h3 fun a => ⟨(![0, 0, 0] : Fin 3 → Nat) a, h4 a⟩) = _
  refine (Ideal.multiReduction_add_total _ _ h2 (by decide) hφ hacc _).trans ?_
  show ∑ i : S1x1024x1024.Idx, w (Shape.reshapeEquiv h1 i) = _
  rw [Equiv.sum_comp (Shape.reshapeEquiv h1) w, sum_idx2]

/-! ## The two payloads -/

/-- The first payload, the accumulator's initial value, is 0. -/
theorem pay1_apply : Cert.KernelIdeal.Gen.k0_pay1 (F := Ideal) (ix2 0 0) = 0 := by
  unfold Cert.KernelIdeal.Gen.k0_pay1
  simp only [shapeCast_self]
  exact Ideal.ofBits_zero_f32

/-- The second payload: the old accumulator plus the two blocks' sums of squared differences. -/
theorem pay2_apply (v5 v7 v9 v11 : FVec Ideal S1024x128 .bf16) (v15 : FVec Ideal S1024x1024 .f32)
    (v29 : FVec Ideal S1x1 .f32) :
    Cert.KernelIdeal.Gen.k0_pay2 (F := Ideal) v5 v7 v9 v11 v15 v29 (ix2 0 0)
      = v29 (ix2 0 0)
        + ((∑ p : Fin 1024, ∑ q : Fin 1024,
              ((∑ k : Fin 128, v5 (ix2 p k) * v7 (ix2 q k)) - v15 (ix2 p q))
                * ((∑ k : Fin 128, v5 (ix2 p k) * v7 (ix2 q k)) - v15 (ix2 p q)))
          + (∑ p : Fin 1024, ∑ q : Fin 1024,
              ((∑ k : Fin 128, v9 (ix2 p k) * v11 (ix2 q k)) - v15 (ix2 p q))
                * ((∑ k : Fin 128, v9 (ix2 p k) * v11 (ix2 q k)) - v15 (ix2 p q)))) := by
  unfold Cert.KernelIdeal.Gen.k0_pay2
  simp only [shapeCast_self]
  simp only [addf_apply, broadcast_apply, Ideal.scalar_addf_def]
  refine congrArg (v29 (ix2 0 0) + ·) (congrArg₂ (· + ·) ?_ ?_)
  · refine (sum_tile _ _ _ _ _ _ _).trans ?_
    refine Finset.sum_congr rfl fun p _ => Finset.sum_congr rfl fun q _ => ?_
    simp only [mulf_apply, subf_apply]
    rw [matmul_tile]
  · refine (sum_tile _ _ _ _ _ _ _).trans ?_
    refine Finset.sum_congr rfl fun p _ => Finset.sum_congr rfl fun q _ => ?_
    simp only [mulf_apply, subf_apply]
    rw [matmul_tile]

end Cert.Sim

end
-- ==== Proof.Ideal.Value.lean ====
/- The kernel program's result, over the extended reals.

   Write X for the normalized input (the reference's stage of that name, applied to the first argument) and Y for the
   target matrix (the second argument). At grid point t the body's arithmetic, on the blocks the windows hold there,
   adds to the accumulator's old value the two sums of squared differences over tile (t / 8, t % 8): the blocks are
   rows 1024 (t / 8) + p and 1024 (t % 8) + q of the two views' arrays and the tile of Y at those rows and columns, and
   view v's array at (n, k) is X at (v, n, k) — so the added term is the specification's tile term. By induction on
   the point (the first clears the accumulator first, the others find what the point before left), after point n the
   accumulator holds the specification's running total acc X Y n. The last point copies the accumulator to the result
   buffer, whose one write-back fills the 1 x 1 result array; the three operations after the region reshape it to a
   scalar and divide by the constant 2^26. Hence the program's result is acc X Y 63 / 2^26. -/
import proofs.«125349_j36593121362411_1_alg».proof.Proof.Ideal.Pieces
import proofs.«125349_j36593121362411_1_alg».proof.Proof.Ideal.Blocks
import proofs.«125349_j36593121362411_1_alg».proof.Proof.Ideal.Prefix
import proofs.«125349_j36593121362411_1_alg».proof.Proof.Ideal.Exit
import proofs.«125349_j36593121362411_1_alg».proof.Proof.SimPay
import Idealize.ShloMosaic.Lib.Pipeline.Value
import Idealize.ShloMosaic.Lib.StableHlo.Run
import Idealize.ShloMosaic.Lib.Tactic

set_option maxRecDepth 16384

noncomputable section

namespace Cert.KernelIdeal.FrValue

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)
open Idealize.ShloMosaic.ValueIdx Idealize.ShloMosaic.StableHlo

variable (m : (ℓ : Loc nD τ sig) → Buf (Elt Ideal) ℓ)

/-- The normalized input (the reference's stage of that name, of the first argument) and the target matrix (the second
    argument): the specification's two arrays. -/
abbrev XN (c : Dev nD) : (⟨3, ![2, 8192, 128]⟩ : Shape).Idx → EReal :=
  Cert.ReferenceIdeal.Read.val_main_v5 (F := Ideal) (m ((c.tc : Thread nD τ).loc main_arg0))
abbrev YT (c : Dev nD) : (⟨2, ![8192, 8192]⟩ : Shape).Idx → EReal := m ((c.tc : Thread nD τ).loc main_arg1)

/-! ## One point's arithmetic on its blocks is the tile's term of the specification -/

/-- If A and A' hold batches 0 and 1 of X row by row and B holds Y, the two sums of squared differences over tile (i, j),
    written over A, A' and B, are the specification's tile term. -/
theorem tile_of_reads (A A' : (⟨2, ![8192, 128]⟩ : Shape).Idx → EReal) (B : (⟨2, ![8192, 8192]⟩ : Shape).Idx → EReal)
    (X : (⟨3, ![2, 8192, 128]⟩ : Shape).Idx → EReal) (Y : (⟨2, ![8192, 8192]⟩ : Shape).Idx → EReal)
    (hA : ∀ (n : Fin 8192) (k : Fin 128), A (ix2 n k) = X (ix3 0 n k))
    (hA' : ∀ (n : Fin 8192) (k : Fin 128), A' (ix2 n k) = X (ix3 1 n k))
    (hB : ∀ n n' : Fin 8192, B (ix2 n n') = Y (ix2 n n')) (i j : Fin 8) :
    (∑ p : Fin 1024, ∑ q : Fin 1024,
        ((∑ k : Fin 128, A (ix2 (Cert.Sim.row i p) k) * A (ix2 (Cert.Sim.row j q) k)) - B (ix2 (Cert.Sim.row i p) (Cert.Sim.row j q)))
          * ((∑ k : Fin 128, A (ix2 (Cert.Sim.row i p) k) * A (ix2 (Cert.Sim.row j q) k)) - B (ix2 (Cert.Sim.row i p) (Cert.Sim.row j q))))
      + (∑ p : Fin 1024, ∑ q : Fin 1024,
        ((∑ k : Fin 128, A' (ix2 (Cert.Sim.row i p) k) * A' (ix2 (Cert.Sim.row j q) k)) - B (ix2 (Cert.Sim.row i p) (Cert.Sim.row j q)))
          * ((∑ k : Fin 128, A' (ix2 (Cert.Sim.row i p) k) * A' (ix2 (Cert.Sim.row j q) k)) - B (ix2 (Cert.Sim.row i p) (Cert.Sim.row j q))))
      = Cert.Sim.tile X Y i j := by
  unfold Cert.Sim.tile Cert.Sim.err Cert.Sim.gram
  simp only [hA, hA', hB]

/-- The body's arithmetic on point t's blocks adds tile (t / 8, t % 8) of the specification to the old value. -/
theorem step_eq (c : Dev nD) (t : Fin cfg0.N) (xs : FVec Ideal S1x1 .f32) :
    k0_pay2 (F := Ideal) (iblk m c 0 t) (iblk m c 2 t) (iblk m c 1 t) (iblk m c 3 t) (iblk m c 4 t) xs (ix2 0 0)
      = xs (ix2 0 0) + Cert.Sim.tile (XN m c) (YT m c) ⟨t.val / 8 % 8, Nat.mod_lt _ (by norm_num)⟩ ⟨t.val % 8, Nat.mod_lt _ (by norm_num)⟩ := by
  refine (Cert.Sim.pay2_apply (iblk m c 0 t) (iblk m c 2 t) (iblk m c 1 t) (iblk m c 3 t) (iblk m c 4 t) xs).trans ?_
  refine congrArg (xs (ix2 0 0) + ·) ?_
  simp only [iblk0_apply, iblk1_apply, iblk2_apply, iblk3_apply, iblk4_apply]
  exact tile_of_reads (V m c main_v8) (V m c main_v10) (V m c main_arg1) (XN m c) (YT m c) (V_main_v8_apply m c)
    (V_main_v10_apply m c) (fun n n' => congrFun (V_main_arg1 m c) (ix2 n n')) _ _

/-! ## The accumulator after each point -/

/-- The specification's running total, one step on. -/
theorem acc_succ (X : (⟨3, ![2, 8192, 128]⟩ : Shape).Idx → EReal) (Y : (⟨2, ![8192, 8192]⟩ : Shape).Idx → EReal) (n : ℕ) :
    Cert.Sim.acc X Y (n + 1)
      = Cert.Sim.acc X Y n
        + Cert.Sim.tile X Y ⟨(n + 1) / 8 % 8, Nat.mod_lt _ (by norm_num)⟩ ⟨(n + 1) % 8, Nat.mod_lt _ (by norm_num)⟩ := rfl

theorem accAt_first_apply (c : Dev nD) (t : Fin cfg0.N) (h0 : t.val % 64 = 0) (h1 : ¬t.val % 64 = 63) :
    accAt m c t.val t.isLt (ix2 0 0) = 0 + Cert.Sim.tile (XN m c) (YT m c) ⟨t.val / 8 % 8, Nat.mod_lt _ (by norm_num)⟩ ⟨t.val % 8, Nat.mod_lt _ (by norm_num)⟩ := by
  refine (congrFun (accAt_first m c t h0 h1) (ix2 0 0)).trans ?_
  refine (congrFun (soutFirst_eq c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) ((hcond0_0 t).mpr h0) (fun h => h1 ((hcond0_1 t).mp h)) (iblk m c 0 t) (iblk m c 1 t) (iblk m c 2 t) (iblk m c 3 t) (iblk m c 4 t)) (ix2 0 0)).trans ?_
  refine (step_eq m c t (k0_pay1 (F := Ideal))).trans ?_
  rw [Cert.Sim.pay1_apply]

theorem accAt_mid_apply (c : Dev nD) (t : Fin cfg0.N) (h0 : ¬t.val % 64 = 0) (h1 : ¬t.val % 64 = 63) :
    accAt m c t.val t.isLt (ix2 0 0)
      = accAt m c (t.val - 1) (Nat.lt_of_le_of_lt (Nat.sub_le _ _) t.isLt) (ix2 0 0)
        + Cert.Sim.tile (XN m c) (YT m c) ⟨t.val / 8 % 8, Nat.mod_lt _ (by norm_num)⟩ ⟨t.val % 8, Nat.mod_lt _ (by norm_num)⟩ :=
  (congrFun (accAt_mid m c t h0 h1) (ix2 0 0)).trans
    ((congrFun (soutMid_eq c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun h => h0 ((hcond0_0 t).mp h)) (fun h => h1 ((hcond0_1 t).mp h)) (iblk m c 0 t) (iblk m c 1 t) (iblk m c 2 t) (iblk m c 3 t) (iblk m c 4 t) (accAt m c (t.val - 1) (Nat.lt_of_le_of_lt (Nat.sub_le _ _) t.isLt))) (ix2 0 0)).trans
      (step_eq m c t (accAt m c (t.val - 1) (Nat.lt_of_le_of_lt (Nat.sub_le _ _) t.isLt))))

theorem accAt_last_apply (c : Dev nD) (t : Fin cfg0.N) (h0 : ¬t.val % 64 = 0) (h1 : t.val % 64 = 63) :
    accAt m c t.val t.isLt (ix2 0 0)
      = accAt m c (t.val - 1) (Nat.lt_of_le_of_lt (Nat.sub_le _ _) t.isLt) (ix2 0 0)
        + Cert.Sim.tile (XN m c) (YT m c) ⟨t.val / 8 % 8, Nat.mod_lt _ (by norm_num)⟩ ⟨t.val % 8, Nat.mod_lt _ (by norm_num)⟩ :=
  (congrFun (accAt_last m c t h0 h1) (ix2 0 0)).trans
    ((congrFun (soutLast_eq c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (fun h => h0 ((hcond0_0 t).mp h)) ((hcond0_1 t).mpr h1) (iblk m c 0 t) (iblk m c 1 t) (iblk m c 2 t) (iblk m c 3 t) (iblk m c 4 t) (accAt m c (t.val - 1) (Nat.lt_of_le_of_lt (Nat.sub_le _ _) t.isLt))) (ix2 0 0)).trans
      (step_eq m c t (accAt m c (t.val - 1) (Nat.lt_of_le_of_lt (Nat.sub_le _ _) t.isLt))))

/-- After point n the accumulator holds the specification's running total. -/
theorem accAt_eq (c : Dev nD) : ∀ (n : ℕ) (hn : n < cfg0.N), accAt m c n hn (ix2 0 0) = Cert.Sim.acc (XN m c) (YT m c) n
  | 0, hn => by
    have e : ∀ i j : Fin 8, i = 0 → j = 0 →
        (0 : EReal) + Cert.Sim.tile (XN m c) (YT m c) i j = Cert.Sim.acc (XN m c) (YT m c) 0 := by
      rintro i j rfl rfl; rfl
    exact (accAt_first_apply m c ⟨0, hn⟩ rfl (by dsimp only; omega)).trans (e _ _ (Fin.ext (by show 0 / 8 % 8 = 0; decide)) (Fin.ext (by show 0 % 8 = 0; decide)))
  | n + 1, hn => by
    have hN : n + 1 < 64 := lt_of_lt_of_eq hn N64
    have h0 : ¬(⟨n + 1, hn⟩ : Fin cfg0.N).val % 64 = 0 := by dsimp only; omega
    have key : ∀ (k : ℕ) (hk : k < cfg0.N), k = n → accAt m c k hk (ix2 0 0) = Cert.Sim.acc (XN m c) (YT m c) n :=
      fun k hk e => by subst e; exact accAt_eq c k hk
    have hk : n + 1 - 1 < cfg0.N := Nat.lt_of_le_of_lt (Nat.sub_le _ _) hn
    rw [acc_succ]
    by_cases h1 : (⟨n + 1, hn⟩ : Fin cfg0.N).val % 64 = 63
    · refine (accAt_last_apply m c ⟨n + 1, hn⟩ h0 h1).trans ?_
      show accAt m c (n + 1 - 1) hk (ix2 0 0) + Cert.Sim.tile (XN m c) (YT m c) ⟨(n + 1) / 8 % 8, Nat.mod_lt _ (by norm_num)⟩ ⟨(n + 1) % 8, Nat.mod_lt _ (by norm_num)⟩ = _
      rw [key (n + 1 - 1) hk (Nat.add_sub_cancel n 1)]
    · refine (accAt_mid_apply m c ⟨n + 1, hn⟩ h0 h1).trans ?_
      show accAt m c (n + 1 - 1) hk (ix2 0 0) + Cert.Sim.tile (XN m c) (YT m c) ⟨(n + 1) / 8 % 8, Nat.mod_lt _ (by norm_num)⟩ ⟨(n + 1) % 8, Nat.mod_lt _ (by norm_num)⟩ = _
      rw [key (n + 1 - 1) hk (Nat.add_sub_cancel n 1)]

/-! ## The result array -/

/-- The result window's block index is (0, 0) at every point, and its block is the whole 1 x 1 array. -/
theorem idx0_5 : ∀ t : Fin cfg0.N, win0_5.index t 0 = 0 ∧ win0_5.index t 1 = 0 :=
  (by decide +kernel : ∀ t : Fin grid0.N, win0_5.index t 0 = 0 ∧ win0_5.index t 1 = 0)
theorem xsize0_5 : ∀ t : Fin cfg0.N, win0_5.xsize (grid0.coords t) 0 = 1 ∧ win0_5.xsize (grid0.coords t) 1 = 1 :=
  (by decide +kernel : ∀ t : Fin grid0.N, win0_5.xsize (grid0.coords t) 0 = 1 ∧ win0_5.xsize (grid0.coords t) 1 = 1)

theorem lt63 : 63 < cfg0.N := lt_of_lt_of_eq (by decide : 63 < 64) N64.symm
/-- The last point of the grid. -/
abbrev tLast : Fin cfg0.N := ⟨63, lt63⟩

/-- A 1 x 1 array has one index. -/
theorem idx11 (j : S1x1.Idx) : j = ix2 0 0 := by
  funext a
  apply Fin.ext
  match a with
  | ⟨0, _⟩ => have := idx2_lt0 j; show (j 0).val = 0; omega
  | ⟨1, _⟩ => have := idx2_lt1 j; show (j 1).val = 0; omega

/-- What the last point stored in the result buffer, as contents of the result array (its one block is the array). -/
abbrev result (c : Dev nD) : Buf (Elt Ideal) ((c.tc : Thread nD τ).loc main_v11) := outAt m c tLast

/-- The one write-back, at the last point, writes it. -/
theorem flushed_eq (c : Dev nD) (t : Fin cfg0.N) (hf : (cfg0.win 5).flush t = true) :
    (dats m 0 c).flushed 5 t = ((cfg0.win 5).blk t).view.read (Elt Ideal) (result m c) := by
  have hN : cfg0.N = 64 := N64
  have h63 : t.val = 63 := by have := (flush0_5 t).mp hf; have := t.isLt; omega
  obtain rfl : t = tLast := Fin.ext h63
  show (cfg0.win 5).cut (grid0.coords tLast) ((dats m 0 c).after 5 tLast) = _
  rw [after0_5]
  have hz' : (fun a => win0_5.index tLast a * main_v11.ty.shape.size a) = fun _ => 0 := funext fun a => by
    match a with
    | ⟨0, _⟩ => show win0_5.index tLast 0 * _ = 0; rw [(idx0_5 tLast).1, Nat.zero_mul]
    | ⟨1, _⟩ => show win0_5.index tLast 1 * _ = 0; rw [(idx0_5 tLast).2, Nat.zero_mul]
  exact (Memref.read_access_unit_zero (Elt Ideal) main_v11 hz' (fun a => by rw [congrFun hz' a]; simp) (result m c)).symm

/-- So the result array ends holding it. -/
theorem outArr_eq (c : Dev nD) : outArr m c = result m c :=
  (dats m 0 c).arrAt_eq_of_cover 5 (result m c) (flushed_eq m c) fun i =>
    ⟨tLast, (flush0_5 tLast).mpr rfl, by
      show i ∈ ((View.whole main_v11).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index tLast 0 * win0_5.size 0 ≤ (i 0 : Nat) ∧ (i 0 : Nat) < win0_5.index tLast 0 * win0_5.size 0 + win0_5.xsize (grid0.coords tLast) 0
        rw [(idx0_5 tLast).1, (xsize0_5 tLast).1]; omega
      | ⟨1, _⟩ =>
        show win0_5.index tLast 1 * win0_5.size 1 ≤ (i 1 : Nat) ∧ (i 1 : Nat) < win0_5.index tLast 1 * win0_5.size 1 + win0_5.xsize (grid0.coords tLast) 1
        rw [(idx0_5 tLast).2, (xsize0_5 tLast).2]; omega⟩

/-- Its one entry is the specification's running total after the last tile. -/
theorem result_apply (c : Dev nD) : result m c (ix2 0 0) = Cert.Sim.acc (XN m c) (YT m c) 63 := by
  have h0 : ¬tLast.val % 64 = 0 := by decide
  have h1 : tLast.val % 64 = 63 := rfl
  have e : outAt m c tLast = accAt m c tLast.val tLast.isLt :=
    (outAt_last m c tLast h0 h1).trans
      ((outLast_eq c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) scM (Memref.isWhole_whole _) (fun h => h0 ((hcond0_0 tLast).mp h)) ((hcond0_1 tLast).mpr h1) (iblk m c 0 tLast) (iblk m c 1 tLast) (iblk m c 2 tLast) (iblk m c 3 tLast) (iblk m c 4 tLast) (accAt m c (tLast.val - 1) (Nat.lt_of_le_of_lt (Nat.sub_le _ _) tLast.isLt))).trans
        ((accAt_last m c tLast h0 h1).trans
          (soutLast_eq c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) scM (Memref.isWhole_whole _) (fun h => h0 ((hcond0_0 tLast).mp h)) ((hcond0_1 tLast).mpr h1) (iblk m c 0 tLast) (iblk m c 1 tLast) (iblk m c 2 tLast) (iblk m c 3 tLast) (iblk m c 4 tLast) (accAt m c (tLast.val - 1) (Nat.lt_of_le_of_lt (Nat.sub_le _ _) tLast.isLt)))).symm)
  show outAt m c tLast (ix2 0 0) = _
  rw [e]
  exact accAt_eq m c 63 lt63

/-! ## The end of the program -/

/-- The program's result: the reshape of the 1 x 1 result array to a scalar, divided by 2^26 — the specification's
    running total after the last tile, over 2^26. -/
theorem kernel_result (c : Dev nD) :
    Wend (F := Ideal) m c (Proc.devRef .tc main_v13)
      = fun _ => Ideal.div (Cert.Sim.acc (Cert.ReferenceIdeal.Read.val_main_v5 (F := Ideal) (m ((c.tc : Thread nD τ).loc main_arg0))) (m ((c.tc : Thread nD τ).loc main_arg1)) 63) (Ideal.ofBits .f32 0x4C800000#32) := by
  unfold Wend
  show StableHlo.after hostOps1 (Wexit m c) (Proc.devRef .tc main_v13) = _
  after_results
  funext i
  show Ideal.div (shapeCast S_ (Wexit m c (Proc.devRef .tc main_v11)) shapeCasts_S1x1_S_ i) (Ideal.ofBits .f32 0x4C800000#32) = _
  rw [Wexit_out, outArr_eq]
  show Ideal.div (result m c (Shape.reshapeEquiv shapeCasts_S1x1_S_ i)) (Ideal.ofBits .f32 0x4C800000#32) = _
  rw [idx11 (Shape.reshapeEquiv shapeCasts_S1x1_S_ i), result_apply]

end Cert.KernelIdeal.FrValue

end
-- ==== Proof.SimRef.lean ====
/- The reference program's result, read as the specification's reference form.

   After the normalisation stage XN (kept as one function of the first input, never opened), the reference computes,
   for each batch v < 2: the Gram matrix of XN[v] by a batched contraction over the 128 features, subtracts the
   target matrix (broadcast over the batch), squares element by element, sums over both matrix axes from a zero
   start, and divides by the constant 2^26; then it sums the two batches' quotients from a zero start. That is
     0 + sum over v < 2 of (0 + sum over n, m < 8192 of err XN Y v n m) / c,
   the specification's refSum. One step is read by hand: the host's sum of a [2, 8192, 8192] array over its last two
   axes into [2]. An index of the source reduces to v exactly when its first coordinate is v, and the indices with
   first coordinate v are the (v, n, m), so the sum over them is the double sum over n and m. -/
import proofs.«125349_j36593121362411_1_alg».proof.Proof.Gen.ReferenceIdeal.Read
import proofs.«125349_j36593121362411_1_alg».proof.Proof.SimSpec

noncomputable section

namespace Cert.Sim

open Idealize.ShloMosaic Idealize.ShloMosaic.ValueIdx Idealize.ShloMosaic.StableHlo Cert.ReferenceIdeal
open scoped BigOperators

/-! ## A sum over a rank-1 index set -/

/-- A sum over the indices of a [n] array is the sum over its coordinate. -/
theorem sum_idx1 {M : Type*} [AddCommMonoid M] {n : Nat} (f : (⟨1, ![n]⟩ : Shape).Idx → M) :
    ∑ j, f j = ∑ a : Fin n, f (ix1 a) :=
  Fintype.sum_equiv
    { toFun := fun j => j 0, invFun := fun a => ix1 a, left_inv := fun j => (eq_ix1 j).symm, right_inv := fun _ => rfl }
    _ _ fun j => congrArg f (eq_ix1 j)

/-! ## The host's sum over the last two axes of a [2, 8192, 8192] array -/

/-- Dropping the last two coordinates of (v, n, m) leaves v. -/
theorem drop_batch_val (h : S2x8192x8192.ReducesTo [1, 2] S2) (i : S2x8192x8192.Idx) :
    (h.drop i 0).val = (i 0).val :=
  Shape.ReducesTo.drop_apply_val_of_eq h i 0 0

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- (u, n, m) reduces to v exactly when u = v. -/
theorem drop_batch_eq_iff (h : S2x8192x8192.ReducesTo [1, 2] S2) (u v : Fin 2) (n m : Fin 8192) :
    h.drop (ix3 u n m) = ix1 v ↔ u = v := by
  constructor
  · intro e
    exact Fin.ext ((drop_batch_val h (ix3 u n m)).symm.trans (congrArg (fun j : S2.Idx => (j 0).val) e))
  · intro e
    funext b
    match b with
    | ⟨0, _⟩ => exact Fin.ext ((drop_batch_val h (ix3 u n m)).trans (congrArg Fin.val e))

/-- The host's sum over axes 1 and 2, at v: the initial value plus the sum over (n, m) of the operand at (v, n, m). -/
theorem hostReduceAdd_batch (h : S2x8192x8192.ReducesTo [1, 2] S2) (x : S2x8192x8192.Idx → EReal) (init : EReal)
    (v : Fin 2) :
    Ideal.hostReduceAdd h x init (ix1 v) = init + ∑ n : Fin 8192, ∑ m : Fin 8192, x (ix3 v n m) := by
  unfold Ideal.hostReduceAdd
  refine congrArg (init + ·) ?_
  rw [Finset.sum_filter, sum_idx3]
  refine (Finset.sum_congr rfl fun u _ => ?_ :
    _ = ∑ u : Fin 2, if u = v then ∑ n : Fin 8192, ∑ m : Fin 8192, x (ix3 u n m) else 0).trans ?_
  · by_cases e : u = v
    · rw [if_pos e]
      exact Finset.sum_congr rfl fun n _ => Finset.sum_congr rfl fun m _ => if_pos ((drop_batch_eq_iff h u v n m).2 e)
    · rw [if_neg e]
      exact Finset.sum_eq_zero fun n _ => Finset.sum_eq_zero fun m _ =>
        if_neg fun hh => e ((drop_batch_eq_iff h u v n m).1 hh)
  · rw [Finset.sum_ite_eq' Finset.univ v, if_pos (Finset.mem_univ v)]

/-- The one stage of the reference the generated reading leaves out: the sum over both matrix axes, at batch v. -/
theorem val_main_v11_apply (x0 : (⟨S8192x2x128, .f32⟩ : BufTy).Contents (Elt Ideal))
    (x1 : (⟨S8192x8192, .f32⟩ : BufTy).Contents (Elt Ideal)) (v : Fin 2) :
    Cert.ReferenceIdeal.Read.val_main_v11 (F := Ideal) x0 x1 (ix1 v)
      = Cert.ReferenceIdeal.Read.val_main_cst_0 (F := Ideal) (Shape.Idx.first Cert.ReferenceIdeal.Gen.h_S_)
        + ∑ n : Fin 8192, ∑ m : Fin 8192, Cert.ReferenceIdeal.Read.val_main_v10 (F := Ideal) x0 x1 (ix3 v n m) := by
  unfold Cert.ReferenceIdeal.Read.val_main_v11
  generalize Cert.ReferenceIdeal.Read.val_main_v10 (F := Ideal) x0 x1 = y0
  simp only [Host.reduceAdd, Ideal.hostReduceAdd_def]
  exact hostReduceAdd_batch _ y0 _ v

/-! ## The squared difference at (v, n, m) -/

/-- The reference's squared difference at (v, n, m) is the specification's err of the normalised input. -/
theorem val_main_v10_apply_ix3 (x0 : (⟨S8192x2x128, .f32⟩ : BufTy).Contents (Elt Ideal))
    (x1 : (⟨S8192x8192, .f32⟩ : BufTy).Contents (Elt Ideal)) (v : Fin 2) (n m : Fin 8192) :
    Cert.ReferenceIdeal.Read.val_main_v10 (F := Ideal) x0 x1 (ix3 v n m)
      = err (Cert.ReferenceIdeal.Read.val_main_v5 (F := Ideal) x0) x1 v n m := by
  have el : ∀ k : Fin 128, Cert.ReferenceIdeal.Read.lidx_main_v6 (ix3 v n m) k = ix3 v n k := fun k =>
    funext fun a => Fin.ext (by match a with | ⟨0, _⟩ => rfl | ⟨1, _⟩ => rfl | ⟨2, _⟩ => rfl)
  have er : ∀ k : Fin 128, Cert.ReferenceIdeal.Read.ridx_main_v6 (ix3 v n m) k = ix3 v m k := fun k =>
    funext fun a => Fin.ext (by match a with | ⟨0, _⟩ => rfl | ⟨1, _⟩ => rfl | ⟨2, _⟩ => rfl)
  have ey : Cert.ReferenceIdeal.Read.idx_main_v7 (Cert.ReferenceIdeal.Read.idx_main_v8 (ix3 v n m)) = ix2 n m :=
    funext fun a => Fin.ext (by match a with | ⟨0, _⟩ => rfl | ⟨1, _⟩ => rfl)
  rw [Cert.ReferenceIdeal.Read.val_main_v10_apply, Cert.ReferenceIdeal.Read.val_main_v9_apply,
    Cert.ReferenceIdeal.Read.val_main_v6_apply, Cert.ReferenceIdeal.Read.val_main_v8_apply,
    Cert.ReferenceIdeal.Read.val_main_v7_apply]
  simp only [el, er, ey, Ideal.mulf_def, Ideal.subf_def]
  rfl

/-! ## The reference is the specification's reference form -/

theorem ref_eq (x0 : (⟨S8192x2x128, .f32⟩ : BufTy).Contents (Elt Ideal))
    (x1 : (⟨S8192x8192, .f32⟩ : BufTy).Contents (Elt Ideal)) :
    Cert.ReferenceIdeal.Read.val_main_v14 (F := Ideal) x0 x1
      = fun _ => refSum (Cert.ReferenceIdeal.Read.val_main_v5 (F := Ideal) x0) x1 (Ideal.ofBits .f32 0x4C800000#32) := by
  funext i
  rw [Cert.ReferenceIdeal.Read.val_main_v14_apply]
  unfold refSum
  refine congrArg₂ (· + ·) Ideal.ofBits_zero_f32 ?_
  rw [sum_idx1]
  refine Finset.sum_congr rfl fun v _ => ?_
  show Ideal.div (Cert.ReferenceIdeal.Read.val_main_v11 (F := Ideal) x0 x1 (ix1 v)) (Ideal.ofBits .f32 0x4C800000#32) = _
  refine congrArg (Ideal.div · _) ?_
  rw [val_main_v11_apply]
  refine congrArg₂ (· + ·) Ideal.ofBits_zero_f32 ?_
  exact Finset.sum_congr rfl fun n _ => Finset.sum_congr rfl fun m _ => val_main_v10_apply_ix3 x0 x1 v n m

end Cert.Sim

end
-- ==== Proof.lean ====
/-
  The certificate of the pairwise-similarity distillation loss: for two views of an 8192 × 128 embedding, each row
  divided by the larger of its norm and a fixed epsilon, the loss is the sum over the two views of the mean, over all
  8192² pairs (n, m), of (⟨x_n, x_m⟩ − Y[n, m])², Y the given target matrix.

  The reference computes each view's 8192 × 8192 matrix of inner products at once, subtracts Y, squares, sums over
  all pairs, divides each view's sum by 2^26 = 8192², and adds the two quotients.  The kernel normalizes the views
  with the very same host operations, then walks the 8 × 8 grid of 1024 × 1024 tiles of Y: at tile (i, j) it forms
  both views' inner products of row tile i with row tile j, subtracts the tile of Y, squares, sums each view's tile,
  and adds the two sums to a running scalar (cleared at the first tile, copied out at the last), which is divided by
  2^26 at the end.

  Over the extended reals the two agree: a square is nonnegative, so every partial sum is nonnegative, sums may be
  regrouped at will, and division by the positive real 2^26 distributes over a sum of two nonnegative terms.  Nothing
  needs the inputs to be finite.

  The three frames: the two kernel programs run their region under the launch theorem for windows that share an
  array (each normalized view is read through a row window and a column window, each holding half of it), with the
  accumulator's contents named point by point; the reference is its operations run in order.  The idealized kernel
  is the kernel's own text read over the extended reals (no rewrite was made), so `preserves` has nothing to state.
-/
import proofs.«125349_j36593121362411_1_alg».proof.Defs
import proofs.«125349_j36593121362411_1_alg».proof.Proof.Gen.Kernel
import proofs.«125349_j36593121362411_1_alg».proof.Proof.Gen.KernelIdeal
import proofs.«125349_j36593121362411_1_alg».proof.Proof.Gen.ReferenceIdeal
import proofs.«125349_j36593121362411_1_alg».proof.Proof.Gen.Pre_finite_inputs
import proofs.«125349_j36593121362411_1_alg».proof.Proof.Gen.ReferenceIdeal.Read
import proofs.«125349_j36593121362411_1_alg».proof.Proof.Bits.Region
import proofs.«125349_j36593121362411_1_alg».proof.Proof.Ideal.Region
import proofs.«125349_j36593121362411_1_alg».proof.Proof.Ideal.Value
import proofs.«125349_j36593121362411_1_alg».proof.Proof.SimRef
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Fr.frame (F := Bits) m ρ

theorem frame_ki [Cert.KernelIdeal.Facts] [Cert.Pre_finite_inputs.Facts] : Cert.frame_KernelIdeal :=
  fun m ρ _ => Cert.KernelIdeal.Fr.frame (F := Ideal) m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The kernel's run ends with the accumulated sum over the 64 tiles divided by 2^26, the reference's with the sum
    over the two views of each view's total divided by 2^26, of arguments that agree: one extended real. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Fr.Wend (F := Ideal) m c (Proc.devRef .tc Cert.KernelIdeal.main_v13),
    Cert.KernelIdeal.Fr.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine ((Cert.ReferenceIdeal.Read.val_main_v14_eq (F := Ideal) _ _).trans ?_)
  rw [Cert.Sim.ref_eq]
  refine Eq.trans ?_ (Cert.KernelIdeal.FrValue.kernel_result m c).symm
  rw [Cert.Sim.acc_div_eq_refSum]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
